-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x32 : Shape := ⟨2, ![800000, 32]⟩
abbrev S800000 : Shape := ⟨1, ![800000]⟩
abbrev S2x288x128 : Shape := ⟨3, ![2, 288, 128]⟩
abbrev S2x128 : Shape := ⟨2, ![2, 128]⟩
abbrev S2x128x384 : Shape := ⟨3, ![2, 128, 384]⟩
abbrev S2x384 : Shape := ⟨2, ![2, 384]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S2x288x128 : S_.BroadcastsInDim S2x288x128 (![] : Fin 0 → Fin S2x288x128.rank)
  reducesTo_S2x288x128_S_d0_1_2 : S2x288x128.ReducesTo [0, 1, 2] S_
  bcast_S_S2x128 : S_.BroadcastsInDim S2x128 (![] : Fin 0 → Fin S2x128.rank)
  reducesTo_S2x128_S_d0_1 : S2x128.ReducesTo [0, 1] S_
  bcast_S_S2x128x384 : S_.BroadcastsInDim S2x128x384 (![] : Fin 0 → Fin S2x128x384.rank)
  reducesTo_S2x128x384_S_d0_1_2 : S2x128x384.ReducesTo [0, 1, 2] S_
  bcast_S_S2x384 : S_.BroadcastsInDim S2x384 (![] : Fin 0 → Fin S2x384.rank)
  reducesTo_S2x384_S_d0_1 : S2x384.ReducesTo [0, 1] S_

variable [Facts]

def fn_part2 {F : FTy → Type} [FloatOps F] (main_arg9 : FVec F S2x384 .f32) (main_v33 : IVec S_ 1) : IVec S_ 1 :=
  let main_v34 : FVec F S2x384 .f32 := Host.absf main_arg9
  let main_cst_12 : FVec F S_ .f32 := constant S_ .f32 0x7F800000#32
  let main_v35 : FVec F S2x384 .f32 := broadcastInDim S2x384 ![] bcast_S_S2x384 main_cst_12
  let main_v36 : IVec S2x384 1 := cmpf .olt main_v34 main_v35
  let main_c_13 : IVec S_ 1 := constantI S_ 1 1#1
  let main_v37 : IVec S_ 1 := (fun x v => Host.reduce IntOp.andi x v reducesTo_S2x384_S_d0_1 h_S_) main_v36 main_c_13
  let main_v38 : IVec S_ 1 := andi main_v33 main_v37
  main_v38

def fn_part1 {F : FTy → Type} [FloatOps F] (main_arg6 : FVec F S2x128x384 .f32) (main_arg7 : FVec F S2x128x384 .f32) (main_arg8 : FVec F S2x384 .f32) (main_arg9 : FVec F S2x384 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x128x384 .f32 := Host.absf main_arg6
  let main_cst_6 : FVec F S_ .f32 := constant S_ .f32 0x7F800000#32
  let main_v20 : FVec F S2x128x384 .f32 := broadcastInDim S2x128x384 ![] bcast_S_S2x128x384 main_cst_6
  let main_v21 : IVec S2x128x384 1 := cmpf .olt main_v19 main_v20
  let main_c_7 : IVec S_ 1 := constantI S_ 1 1#1
  let main_v22 : IVec S_ 1 := (fun x v => Host.reduce IntOp.andi x v reducesTo_S2x128x384_S_d0_1_2 h_S_) main_v21 main_c_7
  let main_v23 : IVec S_ 1 := andi main_v18 main_v22
  let main_v24 : FVec F S2x128x384 .f32 := Host.absf main_arg7
  let main_cst_8 : FVec F S_ .f32 := constant S_ .f32 0x7F800000#32
  let main_v25 : FVec F S2x128x384 .f32 := broadcastInDim S2x128x384 ![] bcast_S_S2x128x384 main_cst_8
  let main_v26 : IVec S2x128x384 1 := cmpf .olt main_v24 main_v25
  let main_c_9 : IVec S_ 1 := constantI S_ 1 1#1
  let main_v27 : IVec S_ 1 := (fun x v => Host.reduce IntOp.andi x v reducesTo_S2x128x384_S_d0_1_2 h_S_) main_v26 main_c_9
  let main_v28 : IVec S_ 1 := andi main_v23 main_v27
  let main_v29 : FVec F S2x384 .f32 := Host.absf main_arg8
  let main_cst_10 : FVec F S_ .f32 := constant S_ .f32 0x7F800000#32
  let main_v30 : FVec F S2x384 .f32 := broadcastInDim S2x384 ![] bcast_S_S2x384 main_cst_10
  let main_v31 : IVec S2x384 1 := cmpf .olt main_v29 main_v30
  let main_c_11 : IVec S_ 1 := constantI S_ 1 1#1
  let main_v32 : IVec S_ 1 := (fun x v => Host.reduce IntOp.andi x v reducesTo_S2x384_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : FVec F S800000x32 .f32) (main_arg2 : IVec S800000 32) (main_arg3 : IVec S800000 32) (main_arg4 : FVec F S2x288x128 .f32) (main_arg5 : FVec F S2x128 .f32) (main_arg6 : FVec F S2x128x384 .f32) (main_arg7 : FVec F S2x128x384 .f32) (main_arg8 : FVec F S2x384 .f32) (main_arg9 : FVec F S2x384 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S2x288x128 .f32 := Host.absf main_arg4
  let main_cst_2 : FVec F S_ .f32 := constant S_ .f32 0x7F800000#32
  let main_v10 : FVec F S2x288x128 .f32 := broadcastInDim S2x288x128 ![] bcast_S_S2x288x128 main_cst_2
  let main_v11 : IVec S2x288x128 1 := cmpf .olt main_v9 main_v10
  let main_c_3 : IVec S_ 1 := constantI S_ 1 1#1
  let main_v12 : IVec S_ 1 := (fun x v => Host.reduce IntOp.andi x v reducesTo_S2x288x128_S_d0_1_2 h_S_) main_v11 main_c_3
  let main_v13 : IVec S_ 1 := andi main_v8 main_v12
  let main_v14 : FVec F S2x128 .f32 := Host.absf main_arg5
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg6 main_arg7 main_arg8 main_arg9 main_v13 main_v16
-- ==== Kernel.lean ====
abbrev S50000x128 : Shape := ⟨2, ![50000, 128]⟩
abbrev S800000x32 : Shape := ⟨2, ![800000, 32]⟩
abbrev S800000 : Shape := ⟨1, ![800000]⟩
abbrev S2x288x128 : Shape := ⟨3, ![2, 288, 128]⟩
abbrev S2x128 : Shape := ⟨2, ![2, 128]⟩
abbrev S2x128x384 : Shape := ⟨3, ![2, 128, 384]⟩
abbrev S2x384 : Shape := ⟨2, ![2, 384]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩
abbrev S1x128 : Shape := ⟨2, ![1, 128]⟩
abbrev S128 : Shape := ⟨1, ![128]⟩
abbrev S16000x128 : Shape := ⟨2, ![16000, 128]⟩
abbrev S16000x32 : Shape := ⟨2, ![16000, 32]⟩
abbrev S1x128x384 : Shape := ⟨3, ![1, 128, 384]⟩
abbrev S128x384 : Shape := ⟨2, ![128, 384]⟩
abbrev S1x384 : Shape := ⟨2, ![1, 384]⟩
abbrev S384 : Shape := ⟨1, ![384]⟩
abbrev S2000x128 : Shape := ⟨2, ![2000, 128]⟩
abbrev S2000x384 : Shape := ⟨2, ![2000, 384]⟩

abbrev nBuf : Space → Nat
  | .hbm => 105
  | .vmem => 44
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S800000, .i32⟩
  | .hbm, ⟨3, _⟩ => ⟨S800000, .i32⟩
  | .hbm, ⟨4, _⟩ => ⟨S2x288x128, .f32⟩
  | .hbm, ⟨5, _⟩ => ⟨S2x128, .f32⟩
  | .hbm, ⟨6, _⟩ => ⟨S2x128x384, .f32⟩
  | .hbm, ⟨7, _⟩ => ⟨S2x128x384, .f32⟩
  | .hbm, ⟨8, _⟩ => ⟨S2x384, .f32⟩
  | .hbm, ⟨9, _⟩ => ⟨S2x384, .f32⟩
  | .hbm, ⟨10, _⟩ => ⟨S800000x32, .bf16⟩
  | .hbm, ⟨11, _⟩ => ⟨S50000x128, .bf16⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .bf16⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .bf16⟩
  | .hbm, ⟨30, _⟩ => ⟨S1x128x128, .f32⟩
  | .hbm, ⟨31, _⟩ => ⟨S128x128, .f32⟩
  | .hbm, ⟨32, _⟩ => ⟨S128x128, .bf16⟩
  | .hbm, ⟨33, _⟩ => ⟨S1x128x128, .f32⟩
  | .hbm, ⟨34, _⟩ => ⟨S128x128, .f32⟩
  | .hbm, ⟨35, _⟩ => ⟨S128x128, .bf16⟩
  | .hbm, ⟨36, _⟩ => ⟨S1x32x128, .f32⟩
  | .hbm, ⟨37, _⟩ => ⟨S32x128, .f32⟩
  | .hbm, ⟨38, _⟩ => ⟨S32x128, .bf16⟩
  | .hbm, ⟨39, _⟩ => ⟨S1x128, .f32⟩
  | .hbm, ⟨40, _⟩ => ⟨S128, .f32⟩
  | .hbm, ⟨41, _⟩ => ⟨S1x128, .f32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S1x128x384, .f32⟩
  | .hbm, ⟨48, _⟩ => ⟨S128x384, .f32⟩
  | .hbm, ⟨49, _⟩ => ⟨S1x128x384, .f32⟩
  | .hbm, ⟨50, _⟩ => ⟨S128x384, .f32⟩
  | .hbm, ⟨51, _⟩ => ⟨S1x384, .f32⟩
  | .hbm, ⟨52, _⟩ => ⟨S384, .f32⟩
  | .hbm, ⟨53, _⟩ => ⟨S1x384, .f32⟩
  | .hbm, ⟨54, _⟩ => ⟨S1x384, .f32⟩
  | .hbm, ⟨55, _⟩ => ⟨S384, .f32⟩
  | .hbm, ⟨56, _⟩ => ⟨S1x384, .f32⟩
  | .hbm, ⟨57, _⟩ => ⟨S50000x128, .f32⟩
  | .hbm, ⟨58, _⟩ => ⟨S50000x128, .bf16⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .bf16⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .bf16⟩
  | .hbm, ⟨77, _⟩ => ⟨S1x128x128, .f32⟩
  | .hbm, ⟨78, _⟩ => ⟨S128x128, .f32⟩
  | .hbm, ⟨79, _⟩ => ⟨S128x128, .bf16⟩
  | .hbm, ⟨80, _⟩ => ⟨S1x128x128, .f32⟩
  | .hbm, ⟨81, _⟩ => ⟨S128x128, .f32⟩
  | .hbm, ⟨82, _⟩ => ⟨S128x128, .bf16⟩
  | .hbm, ⟨83, _⟩ => ⟨S1x32x128, .f32⟩
  | .hbm, ⟨84, _⟩ => ⟨S32x128, .f32⟩
  | .hbm, ⟨85, _⟩ => ⟨S32x128, .bf16⟩
  | .hbm, ⟨86, _⟩ => ⟨S1x128, .f32⟩
  | .hbm, ⟨87, _⟩ => ⟨S128, .f32⟩
  | .hbm, ⟨88, _⟩ => ⟨S1x128, .f32⟩
  | .hbm, ⟨89, _⟩ => ⟨S800000x128, .f32⟩
  | .hbm, ⟨90, _⟩ => ⟨S_, .f32⟩
  | .hbm, ⟨91, _⟩ => ⟨S50000x128, .f32⟩
  | .hbm, ⟨92, _⟩ => ⟨S800000x1, .i32⟩
  | .hbm, ⟨93, _⟩ => ⟨S50000x128, .f32⟩
  | .hbm, ⟨94, _⟩ => ⟨S1x128x384, .f32⟩
  | .hbm, ⟨95, _⟩ => ⟨S128x384, .f32⟩
  | .hbm, ⟨96, _⟩ => ⟨S1x128x384, .f32⟩
  | .hbm, ⟨97, _⟩ => ⟨S128x384, .f32⟩
  | .hbm, ⟨98, _⟩ => ⟨S1x384, .f32⟩
  | .hbm, ⟨99, _⟩ => ⟨S384, .f32⟩
  | .hbm, ⟨100, _⟩ => ⟨S1x384, .f32⟩
  | .hbm, ⟨101, _⟩ => ⟨S1x384, .f32⟩
  | .hbm, ⟨102, _⟩ => ⟨S384, .f32⟩
  | .hbm, ⟨103, _⟩ => ⟨S1x384, .f32⟩
  | .hbm, ⟨104, _⟩ => ⟨S50000x128, .f32⟩
  | .local _ .vmem, ⟨0, _⟩ => ⟨S16000x128, .bf16⟩
  | .local _ .vmem, ⟨1, _⟩ => ⟨S16000x128, .bf16⟩
  | .local _ .vmem, ⟨2, _⟩ => ⟨S16000x128, .bf16⟩
  | .local _ .vmem, ⟨3, _⟩ => ⟨S16000x128, .bf16⟩
  | .local _ .vmem, ⟨4, _⟩ => ⟨S16000x32, .bf16⟩
  | .local _ .vmem, ⟨5, _⟩ => ⟨S16000x32, .bf16⟩
  | .local _ .vmem, ⟨6, _⟩ => ⟨S128x128, .bf16⟩
  | .local _ .vmem, ⟨7, _⟩ => ⟨S128x128, .bf16⟩
  | .local _ .vmem, ⟨8, _⟩ => ⟨S32x128, .bf16⟩
  | .local _ .vmem, ⟨9, _⟩ => ⟨S1x128, .f32⟩
  | .local _ .vmem, ⟨10, _⟩ => ⟨S16000x128, .f32⟩
  | .local _ .vmem, ⟨11, _⟩ => ⟨S16000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x384, .f32⟩
  | .local _ .vmem, ⟨17, _⟩ => ⟨S128x384, .f32⟩
  | .local _ .vmem, ⟨18, _⟩ => ⟨S1x384, .f32⟩
  | .local _ .vmem, ⟨19, _⟩ => ⟨S1x384, .f32⟩
  | .local _ .vmem, ⟨20, _⟩ => ⟨S2000x128, .f32⟩
  | .local _ .vmem, ⟨21, _⟩ => ⟨S2000x128, .f32⟩
  | .local _ .vmem, ⟨22, _⟩ => ⟨S16000x128, .bf16⟩
  | .local _ .vmem, ⟨23, _⟩ => ⟨S16000x128, .bf16⟩
  | .local _ .vmem, ⟨24, _⟩ => ⟨S16000x128, .bf16⟩
  | .local _ .vmem, ⟨25, _⟩ => ⟨S16000x128, .bf16⟩
  | .local _ .vmem, ⟨26, _⟩ => ⟨S16000x32, .bf16⟩
  | .local _ .vmem, ⟨27, _⟩ => ⟨S16000x32, .bf16⟩
  | .local _ .vmem, ⟨28, _⟩ => ⟨S128x128, .bf16⟩
  | .local _ .vmem, ⟨29, _⟩ => ⟨S128x128, .bf16⟩
  | .local _ .vmem, ⟨30, _⟩ => ⟨S32x128, .bf16⟩
  | .local _ .vmem, ⟨31, _⟩ => ⟨S1x128, .f32⟩
  | .local _ .vmem, ⟨32, _⟩ => ⟨S16000x128, .f32⟩
  | .local _ .vmem, ⟨33, _⟩ => ⟨S16000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x384, .f32⟩
  | .local _ .vmem, ⟨39, _⟩ => ⟨S128x384, .f32⟩
  | .local _ .vmem, ⟨40, _⟩ => ⟨S1x384, .f32⟩
  | .local _ .vmem, ⟨41, _⟩ => ⟨S1x384, .f32⟩
  | .local _ .vmem, ⟨42, _⟩ => ⟨S2000x128, .f32⟩
  | .local _ .vmem, ⟨43, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_3 : Ref sig .tc := ⟨.hbm, 59, rfl⟩
abbrev main_v44 : Ref sig .tc := ⟨.hbm, 60, rfl⟩
abbrev main_v45 : Ref sig .tc := ⟨.hbm, 61, rfl⟩
abbrev main_c_4 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_5 : Ref sig .tc := ⟨.hbm, 68, rfl⟩
abbrev main_v51 : Ref sig .tc := ⟨.hbm, 69, rfl⟩
abbrev main_v52 : Ref sig .tc := ⟨.hbm, 70, rfl⟩
abbrev main_c_6 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_7 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16000x32 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S16000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S2x288x128_S1x128x128_0_0_0 : S2x288x128.Slices ![0, 0, 0] S1x128x128
  shapeCasts_S1x128x128_S128x128 : S1x128x128.ShapeCasts S128x128
  slices_S2x288x128_S1x128x128_0_128_0 : S2x288x128.Slices ![0, 128, 0] S1x128x128
  slices_S2x288x128_S1x32x128_0_256_0 : S2x288x128.Slices ![0, 256, 0] S1x32x128
  shapeCasts_S1x32x128_S32x128 : S1x32x128.ShapeCasts S32x128
  slices_S2x128_S1x128_0_0 : S2x128.Slices ![0, 0] S1x128
  shapeCasts_S1x128_S128 : S1x128.ShapeCasts S128
  shapeCasts_S128_S1x128 : S128.ShapeCasts S1x128
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  inb_S16000x32_S16000x32_0_0 : ∀ a, (![0, 0] : Fin 2 → Nat) a + S16000x32.size a ≤ S16000x32.size a
  h_S16000x32 : 0 < S16000x32.numel
  shapeCasts_S16000x32_S16000x32 : S16000x32.ShapeCasts S16000x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  bcast_S_S50000x128 : S_.BroadcastsInDim S50000x128 (![] : Fin 0 → Fin S50000x128.rank)
  slices_S2x128x384_S1x128x384_0_0_0 : S2x128x384.Slices ![0, 0, 0] S1x128x384
  shapeCasts_S1x128x384_S128x384 : S1x128x384.ShapeCasts S128x384
  slices_S2x384_S1x384_0_0 : S2x384.Slices ![0, 0] S1x384
  shapeCasts_S1x384_S384 : S1x384.ShapeCasts S384
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  slices_S2x288x128_S1x128x128_1_0_0 : S2x288x128.Slices ![1, 0, 0] S1x128x128
  slices_S2x288x128_S1x128x128_1_128_0 : S2x288x128.Slices ![1, 128, 0] S1x128x128
  slices_S2x288x128_S1x32x128_1_256_0 : S2x288x128.Slices ![1, 256, 0] S1x32x128
  slices_S2x128_S1x128_1_0 : S2x128.Slices ![1, 0] S1x128
  slices_S2x128x384_S1x128x384_1_0_0 : S2x128x384.Slices ![1, 0, 0] S1x128x384
  slices_S2x384_S1x384_1_0 : S2x384.Slices ![1, 0] S1x384
  gather_S50000x128_S800000x1_S800000x128_1_0_n_n_0_1_1128_wf : GatherDims.WF S50000x128 S800000x1 S800000x128 [1] [0] [] [0] [] 1 ![1, 128]
  dot_S16000x128_S128x128_S16000x128_1_0_0_1_n_n_wf : DotDims.WF S16000x128 S128x128 S16000x128 [1] [0] [0] [1] [] []
  dot_S16000x32_S32x128_S16000x128_1_0_0_1_n_n_wf : DotDims.WF S16000x32 S32x128 S16000x128 [1] [0] [0] [1] [] []
  scatter_S50000x128_S800000x1_S800000x128_1_0_0_1_wf : ScatterDims.WF S50000x128 S800000x1 S800000x128 [1] [0] [0] 1
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S800000x128.size a
  hwx0_0 : ∀ i : grid0.Coords, EltTy.bits .bf16 = 32 ∨ (Rect.block (s := S800000x128) S16000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x128.size a ≤ S800000x128.size a
  hwx0_1 : ∀ i : grid0.Coords, EltTy.bits .bf16 = 32 ∨ (Rect.block (s := S800000x128) S16000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x32.size a ≤ S800000x32.size a
  hwx0_2 : ∀ i : grid0.Coords, EltTy.bits .bf16 = 32 ∨ (Rect.block (s := S800000x32) S16000x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .bf16 = 32 ∨ (Rect.block (s := S32x128) S32x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16000x128.size a ≤ S800000x128.size a
  hwx0_7 : ∀ i : grid0.Coords, EltTy.bits .f32 = 32 ∨ (Rect.block (s := S800000x128) S16000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x128.size a ≤ S800000x128.size a
  hwx2_0 : ∀ i : grid2.Coords, EltTy.bits .bf16 = 32 ∨ (Rect.block (s := S800000x128) S16000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16000x128.size a ≤ S800000x128.size a
  hwx2_1 : ∀ i : grid2.Coords, EltTy.bits .bf16 = 32 ∨ (Rect.block (s := S800000x128) S16000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16000x32.size a ≤ S800000x32.size a
  hwx2_2 : ∀ i : grid2.Coords, EltTy.bits .bf16 = 32 ∨ (Rect.block (s := S800000x32) S16000x32.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x128.size a ≤ S32x128.size a
  hwx2_5 : ∀ i : grid2.Coords, EltTy.bits .bf16 = 32 ∨ (Rect.block (s := S32x128) S32x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S16000x128.size a ≤ S800000x128.size a
  hwx2_7 : ∀ i : grid2.Coords, EltTy.bits .f32 = 32 ∨ (Rect.block (s := S800000x128) S16000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x384.size a ≤ S128x384.size a
  hwx3_2 : ∀ i : grid3.Coords, EltTy.bits .f32 = 32 ∨ (Rect.block (s := S128x384) S128x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x384.size a ≤ S128x384.size a
  hwx3_3 : ∀ i : grid3.Coords, EltTy.bits .f32 = 32 ∨ (Rect.block (s := S128x384) S128x384.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x384.size a ≤ S1x384.size a
  hwx3_4 : ∀ i : grid3.Coords, EltTy.bits .f32 = 32 ∨ (Rect.block (s := S1x384) S1x384.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x384.size a ≤ S1x384.size a
  hwx3_5 : ∀ i : grid3.Coords, EltTy.bits .f32 = 32 ∨ (Rect.block (s := S1x384) S1x384.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def dot_S16000x32_S32x128_S16000x128_1_0_0_1_n_n : DotDims S16000x32 S32x128 S16000x128 where
  lhsContracting := [1]
  rhsContracting := [0]
  lhsNonContracting := [0]
  rhsNonContracting := [1]
  lhsBatch := []
  rhsBatch := []
  wf := dot_S16000x32_S32x128_S16000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_v8) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S16000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S16000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v31) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S16000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S16000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S16000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S32x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v69) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v70) S16000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v73) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v75) S128x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S128x384.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83) S1x384.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v84) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000x32 : Shape := ⟨2, ![800000, 32]⟩
abbrev S800000 : Shape := ⟨1, ![800000]⟩
abbrev S2x288x128 : Shape := ⟨3, ![2, 288, 128]⟩
abbrev S2x128 : Shape := ⟨2, ![2, 128]⟩
abbrev S2x128x384 : Shape := ⟨3, ![2, 128, 384]⟩
abbrev S2x384 : Shape := ⟨2, ![2, 384]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S128 : Shape := ⟨1, ![128]⟩
abbrev S1x128x384 : Shape := ⟨3, ![1, 128, 384]⟩
abbrev S128x384 : Shape := ⟨2, ![128, 384]⟩
abbrev S1x384 : Shape := ⟨2, ![1, 384]⟩
abbrev S384 : Shape := ⟨1, ![384]⟩
abbrev S50000x384 : Shape := ⟨2, ![50000, 384]⟩

abbrev nBuf : Space → Nat
  | .hbm => 184
  | .vmem => 0
  | .smem => 0
  | _ => 0

abbrev hbmTy0_0 (i : Nat) : BufTy := match i % 128 with
  | 0 => ⟨S50000x128, .f32⟩
  | 1 => ⟨S800000x32, .f32⟩
  | 2 => ⟨S800000, .i32⟩
  | 3 => ⟨S800000, .i32⟩
  | 4 => ⟨S2x288x128, .f32⟩
  | 5 => ⟨S2x128, .f32⟩
  | 6 => ⟨S2x128x384, .f32⟩
  | 7 => ⟨S2x128x384, .f32⟩
  | 8 => ⟨S2x384, .f32⟩
  | 9 => ⟨S2x384, .f32⟩
  | 10 => ⟨S1x128x128, .f32⟩
  | 11 => ⟨S128x128, .f32⟩
  | 12 => ⟨S1x128x128, .f32⟩
  | 13 => ⟨S128x128, .f32⟩
  | 14 => ⟨S1x32x128, .f32⟩
  | 15 => ⟨S32x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S800000x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S800000x128, .f32⟩
  | 36 => ⟨S800000x128, .f32⟩
  | 37 => ⟨S800000x128, .f32⟩
  | 38 => ⟨S800000x128, .f32⟩
  | 39 => ⟨S1x128, .f32⟩
  | 40 => ⟨S128, .f32⟩
  | 41 => ⟨S1x128, .f32⟩
  | 42 => ⟨S800000x128, .f32⟩
  | 43 => ⟨S800000x128, .f32⟩
  | 44 => ⟨S_, .f32⟩
  | 45 => ⟨S50000x128, .f32⟩
  | 46 => ⟨S800000x1, .i32⟩
  | 47 => ⟨S50000x128, .f32⟩
  | 48 => ⟨S1x128x384, .f32⟩
  | 49 => ⟨S128x384, .f32⟩
  | 50 => ⟨S1x128x384, .f32⟩
  | 51 => ⟨S128x384, .f32⟩
  | 52 => ⟨S1x384, .f32⟩
  | 53 => ⟨S384, .f32⟩
  | 54 => ⟨S1x384, .f32⟩
  | 55 => ⟨S384, .f32⟩
  | 56 => ⟨S50000x384, .f32⟩
  | 57 => ⟨S1x384, .f32⟩
  | 58 => ⟨S50000x384, .f32⟩
  | 59 => ⟨S50000x384, .f32⟩
  | 60 => ⟨S50000x384, .f32⟩
  | 61 => ⟨S1x384, .f32⟩
  | 62 => ⟨S50000x384, .f32⟩
  | 63 => ⟨S50000x384, .f32⟩
  | 64 => ⟨S50000x128, .f32⟩
  | 65 => ⟨S50000x128, .f32⟩
  | 66 => ⟨S50000x128, .f32⟩
  | 67 => ⟨S50000x128, .f32⟩
  | 68 => ⟨S50000x128, .f32⟩
  | 69 => ⟨S50000x128, .f32⟩
  | 70 => ⟨S50000x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S50000x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x128, .f32⟩
  | 95 => ⟨S50000x128, .f32⟩
  | 96 => ⟨S50000x128, .f32⟩
  | 97 => ⟨S1x128x128, .f32⟩
  | 98 => ⟨S128x128, .f32⟩
  | 99 => ⟨S1x128x128, .f32⟩
  | 100 => ⟨S128x128, .f32⟩
  | 101 => ⟨S1x32x128, .f32⟩
  | 102 => ⟨S32x128, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S800000x128, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x128, .f32⟩
  | 122 => ⟨S800000x128, .f32⟩
  | 123 => ⟨S800000x128, .f32⟩
  | 124 => ⟨S800000x128, .f32⟩
  | 125 => ⟨S800000x128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S800000x128, .f32⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S1x128x384, .f32⟩
  | 8 => ⟨S128x384, .f32⟩
  | 9 => ⟨S1x128x384, .f32⟩
  | 10 => ⟨S128x384, .f32⟩
  | 11 => ⟨S1x384, .f32⟩
  | 12 => ⟨S384, .f32⟩
  | 13 => ⟨S1x384, .f32⟩
  | 14 => ⟨S384, .f32⟩
  | 15 => ⟨S50000x384, .f32⟩
  | 16 => ⟨S1x384, .f32⟩
  | 17 => ⟨S50000x384, .f32⟩
  | 18 => ⟨S50000x384, .f32⟩
  | 19 => ⟨S50000x384, .f32⟩
  | 20 => ⟨S1x384, .f32⟩
  | 21 => ⟨S50000x384, .f32⟩
  | 22 => ⟨S50000x384, .f32⟩
  | 23 => ⟨S50000x128, .f32⟩
  | 24 => ⟨S50000x128, .f32⟩
  | 25 => ⟨S50000x128, .f32⟩
  | 26 => ⟨S50000x128, .f32⟩
  | 27 => ⟨S50000x128, .f32⟩
  | 28 => ⟨S50000x128, .f32⟩
  | 29 => ⟨S50000x128, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S50000x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S50000x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S50000x128, .f32⟩
  | 54 => ⟨S50000x128, .f32⟩
  | 55 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_3 : Ref sig .tc := ⟨.hbm, 73, rfl⟩
abbrev main_v58 : Ref sig .tc := ⟨.hbm, 74, rfl⟩
abbrev main_v59 : Ref sig .tc := ⟨.hbm, 75, rfl⟩
abbrev main_cst_4 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_5 : Ref sig .tc := ⟨.hbm, 82, rfl⟩
abbrev main_v65 : Ref sig .tc := ⟨.hbm, 83, rfl⟩
abbrev main_v66 : Ref sig .tc := ⟨.hbm, 84, rfl⟩
abbrev main_cst_6 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_7 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_c_8 : Ref sig .tc := ⟨.hbm, 103, rfl⟩
abbrev main_v83 : Ref sig .tc := ⟨.hbm, 104, rfl⟩
abbrev main_v84 : Ref sig .tc := ⟨.hbm, 105, rfl⟩
abbrev main_c_9 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_c_10 : Ref sig .tc := ⟨.hbm, 113, rfl⟩
abbrev main_v91 : Ref sig .tc := ⟨.hbm, 114, rfl⟩
abbrev main_v92 : Ref sig .tc := ⟨.hbm, 115, rfl⟩
abbrev main_c_11 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_cst_12 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_cst_13 : Ref sig .tc := ⟨.hbm, 160, rfl⟩
abbrev main_v135 : Ref sig .tc := ⟨.hbm, 161, rfl⟩
abbrev main_v136 : Ref sig .tc := ⟨.hbm, 162, rfl⟩
abbrev main_cst_14 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_cst_15 : Ref sig .tc := ⟨.hbm, 169, rfl⟩
abbrev main_v142 : Ref sig .tc := ⟨.hbm, 170, rfl⟩
abbrev main_v143 : Ref sig .tc := ⟨.hbm, 171, rfl⟩
abbrev main_cst_16 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_cst_17 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩

abbrev nD : Nat := 1
abbrev τ : Topo := Topo.v7x

variable {F : FTy → Type} [FloatOps F]

class Facts₀ : Prop where
  slices_S2x288x128_S1x128x128_0_0_0 : S2x288x128.Slices ![0, 0, 0] S1x128x128
  shapeCasts_S1x128x128_S128x128 : S1x128x128.ShapeCasts S128x128
  slices_S2x288x128_S1x128x128_0_128_0 : S2x288x128.Slices ![0, 128, 0] S1x128x128
  slices_S2x288x128_S1x32x128_0_256_0 : S2x288x128.Slices ![0, 256, 0] S1x32x128
  shapeCasts_S1x32x128_S32x128 : S1x32x128.ShapeCasts S32x128
  bcast_S_S800000 : S_.BroadcastsInDim S800000 (![] : Fin 0 → Fin S800000.rank)
  bcast_S800000_S800000x1_0 : S800000.BroadcastsInDim S800000x1 (![0] : Fin 1 → Fin S800000x1.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  slices_S2x128x384_S1x128x384_0_0_0 : S2x128x384.Slices ![0, 0, 0] S1x128x384
  shapeCasts_S1x128x384_S128x384 : S1x128x384.ShapeCasts S128x384
  slices_S2x384_S1x384_0_0 : S2x384.Slices ![0, 0] S1x384
  shapeCasts_S1x384_S384 : S1x384.ShapeCasts S384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  slices_S2x288x128_S1x128x128_1_0_0 : S2x288x128.Slices ![1, 0, 0] S1x128x128
  slices_S2x288x128_S1x128x128_1_128_0 : S2x288x128.Slices ![1, 128, 0] S1x128x128
  slices_S2x288x128_S1x32x128_1_256_0 : S2x288x128.Slices ![1, 256, 0] S1x32x128
  slices_S2x128_S1x128_1_0 : S2x128.Slices ![1, 0] S1x128
  slices_S2x128x384_S1x128x384_1_0_0 : S2x128x384.Slices ![1, 0, 0] S1x128x384
  slices_S2x384_S1x384_1_0 : S2x384.Slices ![1, 0] S1x384
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  dot_S800000x32_S32x128_S800000x128_1_0_0_1_n_n_wf : DotDims.WF S800000x32 S32x128 S800000x128 [1] [0] [0] [1] [] []
  scatter_S50000x128_S800000x1_S800000x128_1_0_0_1_wf : ScatterDims.WF S50000x128 S800000x1 S800000x128 [1] [0] [0] 1
  dot_S50000x128_S128x384_S50000x384_1_0_0_1_n_n_wf : DotDims.WF S50000x128 S128x384 S50000x384 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x32_S32x128_S800000x128_1_0_0_1_n_n : DotDims S800000x32 S32x128 S800000x128 where
  lhsContracting := [1]
  rhsContracting := [0]
  lhsNonContracting := [0]
  rhsNonContracting := [1]
  lhsBatch := []
  rhsBatch := []
  wf := dot_S800000x32_S32x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf

class Facts : Prop extends Facts₀ where

variable [Facts]
-- ==== Proof.KRun.lean ====
/-
  The idealized kernel's whole run, with the result named.

  The program is four kernel launches among four stretches of host operations.  Its run is the launch of that
  list of segments; every weakly fair execution terminates without a fault, and the final memory holds, in every
  buffer no launch scopes, the contents the last segment boundary records.  Read at the result buffer this is the
  last launch's output array as its write-backs leave it; read at an argument it is the launch contents, no
  segment writing one.
-/
import proofs.«149155_j68058051772923_1_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    segment boundary's contents and every argument as launched. -/
theorem run_result : θ_run defs (onTc (τ := τ) (main (F := F))) ⟨m, fun _ => 0, ρ⟩ (fun r => ∀ c : Dev nD,
      r.2.mem ((c.tc : Thread nD τ).loc main_v84) = W8 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v84 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.KV

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.RowSpec.lean ====
/-
  What one message-passing round computes, one row at a time, at the exact (extended-real) values.

  A round has two dense stages.  The MESSAGE of an edge is an affine function of three rows — the source node's
  row s, the destination node's row d (128 entries each) and the edge's own row e (32 entries):
      msg(q) = ((s · Ws)(q) + (d · Wd)(q) + (e · We)(q)) + b(q),
  grouped in that order.  The UPDATE of a node is a gated recurrent cell on its aggregated message row a and its
  state row h:  with  gi = a · Wih + bih  and  gh = h · Whh + bhh  (384 entries each, three gates of 128),
      r = σ(gi[q] + gh[q]),   z = σ(gi[128 + q] + gh[128 + q]),   n = tanh(gi[256 + q] + r · gh[256 + q]),
      out(q) = (1 − z) · n + z · h(q),
  σ the logistic function.  Both depend on a row alone, so a block of rows computed from a block of the operands
  is the same block of the whole result; the whole-array forms below just read each operand's row.
-/
import proofs.«149155_j68058051772923_1_alg».proof.Proof.LibRowDot

noncomputable section

namespace Cert.RowSpec

open Idealize.ShloMosaic Idealize.ShloMosaic.ValueIdx Cert.RowDot

/-- The literal 1.0, as both programs spell it. -/
def one : EReal := Ideal.ofBits .f32 0x3F800000#32

/-- One edge's message from its three rows. -/
def msgRow (s d : Fin 128 → EReal) (e : Fin 32 → EReal)
    (ws wd : (⟨2, ![128, 128]⟩ : Shape).Idx → EReal) (we : (⟨2, ![32, 128]⟩ : Shape).Idx → EReal)
    (b : Fin 128 → EReal) (q : Fin 128) : EReal :=
  ((rowDot s ws q + rowDot d wd q) + rowDot e we q) + b q

/-- Column o + q of a 384-wide gate vector: gate o / 128 at position q. -/
def gate (o : Nat) (ho : o + 128 ≤ 384) (q : Fin 128) : Fin 384 := ⟨o + q.val, by have := q.isLt; omega⟩

/-- A row's pre-activations: (x · W)(c) + b(c). -/
def pre (x : Fin 128 → EReal) (w : (⟨2, ![128, 384]⟩ : Shape).Idx → EReal) (b : Fin 384 → EReal) (c : Fin 384) : EReal :=
  rowDot x w c + b c

/-- One node's gated update from its message row a and its state row h. -/
def gruRow (a h : Fin 128 → EReal) (wih whh : (⟨2, ![128, 384]⟩ : Shape).Idx → EReal) (bih bhh : Fin 384 → EReal)
    (q : Fin 128) : EReal :=
  (one - Ideal.logistic (pre a wih bih (gate 128 (by decide) q) + pre h whh bhh (gate 128 (by decide) q)))
      * Ideal.tanh (pre a wih bih (gate 256 (by decide) q)
          + Ideal.logistic (pre a wih bih (gate 0 (by decide) q) + pre h whh bhh (gate 0 (by decide) q))
            * pre h whh bhh (gate 256 (by decide) q))
    + Ideal.logistic (pre a wih bih (gate 128 (by decide) q) + pre h whh bhh (gate 128 (by decide) q)) * h q

/-- Every edge's message: row i of the three edge-indexed operands through msgRow. -/
def msgArr {E : Nat} (s d : (⟨2, ![E, 128]⟩ : Shape).Idx → EReal) (e : (⟨2, ![E, 32]⟩ : Shape).Idx → EReal)
    (ws wd : (⟨2, ![128, 128]⟩ : Shape).Idx → EReal) (we : (⟨2, ![32, 128]⟩ : Shape).Idx → EReal)
    (b : Fin 128 → EReal) : (⟨2, ![E, 128]⟩ : Shape).Idx → EReal :=
  fun j => msgRow (rowOf s (j 0)) (rowOf d (j 0)) (rowOf e (j 0)) ws wd we b (j 1)

/-- Every node's update: row i of the two node-indexed operands through gruRow. -/
def gruArr {N : Nat} (a h : (⟨2, ![N, 128]⟩ : Shape).Idx → EReal)
    (wih whh : (⟨2, ![128, 384]⟩ : Shape).Idx → EReal) (bih bhh : Fin 384 → EReal) :
    (⟨2, ![N, 128]⟩ : Shape).Idx → EReal :=
  fun j => gruRow (rowOf a (j 0)) (rowOf h (j 0)) wih whh bih bhh (j 1)

/-- One round on whole arrays: gather the state rows at the edges' two ends (gS, gD), form every edge's message,
    add the messages up per destination node (agg), update every node. -/
def roundOf {E N : Nat}
    (gS gD : ((⟨2, ![N, 128]⟩ : Shape).Idx → EReal) → ((⟨2, ![E, 128]⟩ : Shape).Idx → EReal))
    (agg : ((⟨2, ![E, 128]⟩ : Shape).Idx → EReal) → ((⟨2, ![N, 128]⟩ : Shape).Idx → EReal))
    (hv : (⟨2, ![N, 128]⟩ : Shape).Idx → EReal) (he : (⟨2, ![E, 32]⟩ : Shape).Idx → EReal)
    (ws wd : (⟨2, ![128, 128]⟩ : Shape).Idx → EReal) (we : (⟨2, ![32, 128]⟩ : Shape).Idx → EReal) (b : Fin 128 → EReal)
    (wih whh : (⟨2, ![128, 384]⟩ : Shape).Idx → EReal) (bih bhh : Fin 384 → EReal) :
    (⟨2, ![N, 128]⟩ : Shape).Idx → EReal :=
  gruArr (agg (msgArr (gS hv) (gD hv) he ws wd we b)) hv wih whh bih bhh

end Cert.RowSpec

end
-- ==== Proof.KMsg0.lean ====
/-
  The message launch of round one: what its output array holds afterwards.

  The launch walks fifty grid points; point t stages rows 16000·t … 16000·t + 15999 of the three edge-indexed
  operands (the gathered source rows, the gathered destination rows, the edge features), the three weight
  matrices and the bias row whole, and writes back the same rows of the output.  The body's stored value at
  (p, q) is the message of row p of the staged blocks — three rows times three matrices plus the bias, through the
  matrix unit into a zero accumulator —, and row p of block t is row 16000·t + p of the array.  The fifty blocks
  tile the 800000 rows, so after the launch the output array holds every edge's message as a function of the
  operand arrays the launch found.
-/
import proofs.«149155_j68058051772923_1_alg».proof.Proof.Gen.KernelIdeal.Frame
import proofs.«149155_j68058051772923_1_alg».proof.Proof.RowSpec
import Idealize.ShloMosaic.Lib.Pipeline.Value
import Idealize.ShloMosaic.Lib.ValueLayout

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.RowDot Cert.RowSpec

namespace R0

variable (V : (c : Dev nD) → (b : Ref sig .tc) → Buf (Elt Ideal) ((c : Thread nD τ).loc b))

theorem hz : (![0, 0] : Fin 2 → Nat) = fun _ => 0 := funext fun a => by fin_cases a <;> rfl

theorem d1 : dot_S16000x128_S128x128_S16000x128_1_0_0_1_n_n = DotDims.plain 16000 128 128 := rfl
theorem d2 : dot_S16000x32_S32x128_S16000x128_1_0_0_1_n_n = DotDims.plain 16000 32 128 := rfl

/-- The message body's stored value at (p, q): the message of row p of the three edge blocks. -/
theorem pay (x0 x1 : Vec Ideal S16000x128 .bf16) (x2 : Vec Ideal S16000x32 .bf16) (x3 x4 : Vec Ideal S128x128 .bf16)
    (x5 : Vec Ideal S32x128 .bf16) (x6 : Vec Ideal S1x128 .f32) (p : Fin 16000) (q : Fin 128) :
    k0_pay1 (F := Ideal) x0 x1 x2 x3 x4 x5 x6 (ix2 p q)
      = msgRow (rowOf x0 p) (rowOf x1 p) (rowOf x2 p) x3 x4 x5 (fun q => x6 (ix2 (0 : Fin 1) q)) q := by
  unfold k0_pay1 msgRow
  simp only [shapeCast_self, d1, d2]
  refine congrArg₂ (fun a b : EReal => a + b) (congrArg₂ (fun a b : EReal => a + b) (congrArg₂ (fun a b : EReal => a + b) ?_ ?_) ?_) ?_
  · exact matmul_plain_zero_apply none x0 x3 (ix2 p q)
  · exact matmul_plain_zero_apply none x1 x4 (ix2 p q)
  · exact matmul_plain_zero_apply none x2 x5 (ix2 p q)
  · exact broadcastTo_1b_ab_apply x6 broadcasts_S1x128_S16000x128 p q

/-- The printed index maps over the grid: the three edge-indexed inputs and the output move one block of rows per
    point; the weights and the bias stay at block (0, 0). -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Every edge's message, of the arrays as the launch finds them. -/
def G (c : Dev nD) : S800000x128.Idx → EReal :=
  msgArr (V c main_v8) (V c main_v15) (V c main_v0) (V c main_v18) (V c main_v21) (V c main_v24)
    (fun q => V c main_v27 (ix2 (0 : Fin 1) q))

set_option maxHeartbeats 2000000 in
/-- What point t writes back is block t of the messages. -/
theorem flushed (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S16000x128) hz, View.ld_unit_zero (S := S16000x32) hz, View.ld_unit_zero (S := S128x128) hz,
    View.ld_unit_zero (S := S32x128) hz, View.ld_unit_zero (S := S1x128) hz]
  obtain ⟨e00, e01, e10, e11, e20, e21, e30, e31, e40, e41, e50, e51, e60, e61, e70, e71⟩ := idx t
  refine funext fun (j : S16000x128.Idx) => ?_
  obtain ⟨p, q, rfl⟩ : ∃ (p : Fin 16000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t) (iblk0 V c 6 t) (ix2 p q)
    = G V c (((cfg0.win 7).blk t).view.emb (ix2 p q))
  refine (pay _ _ _ _ _ _ _ p q).trans ?_
  have hp : p.val < 16000 := p.isLt
  have hq : q.val < 128 := q.isLt
  have ht : t.val < 50 := t.isLt
  -- the output entry's place in the whole array
  have ho : ((cfg0.win 7).blk t).view.emb (ix2 p q) = ix2 (⟨t.val * 16000 + p.val, by omega⟩ : Fin 800000) q := by
    funext a; apply Fin.ext
    match a with
    | ⟨0, _⟩ => show win0_7.index t (0 : Fin 2) * 16000 + 1 * p.val = t.val * 16000 + p.val; omega
    | ⟨1, _⟩ => show win0_7.index t (1 : Fin 2) * 128 + 1 * q.val = q.val; omega
  rw [ho]
  show msgRow (rowOf (iblk0 V c 0 t) p) (rowOf (iblk0 V c 1 t) p) (rowOf (iblk0 V c 2 t) p) (iblk0 V c 3 t) (iblk0 V c 4 t)
      (iblk0 V c 5 t) (fun q => iblk0 V c 6 t (ix2 (0 : Fin 1) q)) q
    = msgRow (rowOf (V c main_v8) ⟨t.val * 16000 + p.val, by omega⟩) (rowOf (V c main_v15) ⟨t.val * 16000 + p.val, by omega⟩)
        (rowOf (V c main_v0) ⟨t.val * 16000 + p.val, by omega⟩) (V c main_v18) (V c main_v21) (V c main_v24)
        (fun q => V c main_v27 (ix2 (0 : Fin 1) q)) q
  have r0 : rowOf (iblk0 V c 0 t) p = rowOf (V c main_v8) ⟨t.val * 16000 + p.val, by omega⟩ := funext fun k => by
    show V c main_v8 (((cfg0.win 0).blk t).view.emb (ix2 p k)) = V c main_v8 (ix2 ⟨t.val * 16000 + p.val, by omega⟩ k)
    refine congrArg (V c main_v8) (funext fun a => Fin.ext ?_)
    have hk : k.val < 128 := k.isLt
    match a with
    | ⟨0, _⟩ => show win0_0.index t (0 : Fin 2) * 16000 + 1 * p.val = t.val * 16000 + p.val; omega
    | ⟨1, _⟩ => show win0_0.index t (1 : Fin 2) * 128 + 1 * k.val = k.val; omega
  have r1 : rowOf (iblk0 V c 1 t) p = rowOf (V c main_v15) ⟨t.val * 16000 + p.val, by omega⟩ := funext fun k => by
    show V c main_v15 (((cfg0.win 1).blk t).view.emb (ix2 p k)) = V c main_v15 (ix2 ⟨t.val * 16000 + p.val, by omega⟩ k)
    refine congrArg (V c main_v15) (funext fun a => Fin.ext ?_)
    have hk : k.val < 128 := k.isLt
    match a with
    | ⟨0, _⟩ => show win0_1.index t (0 : Fin 2) * 16000 + 1 * p.val = t.val * 16000 + p.val; omega
    | ⟨1, _⟩ => show win0_1.index t (1 : Fin 2) * 128 + 1 * k.val = k.val; omega
  have r2 : rowOf (iblk0 V c 2 t) p = rowOf (V c main_v0) ⟨t.val * 16000 + p.val, by omega⟩ := funext fun k => by
    show V c main_v0 (((cfg0.win 2).blk t).view.emb (ix2 p k)) = V c main_v0 (ix2 ⟨t.val * 16000 + p.val, by omega⟩ k)
    refine congrArg (V c main_v0) (funext fun a => Fin.ext ?_)
    have hk : k.val < 32 := k.isLt
    match a with
    | ⟨0, _⟩ => show win0_2.index t (0 : Fin 2) * 16000 + 1 * p.val = t.val * 16000 + p.val; omega
    | ⟨1, _⟩ => show win0_2.index t (1 : Fin 2) * 32 + 1 * k.val = k.val; omega
  have w3 : iblk0 V c 3 t = V c main_v18 := funext fun (y : S128x128.Idx) => by
    show V c main_v18 (((cfg0.win 3).blk t).view.emb y) = V c main_v18 y
    refine congrArg (V c main_v18) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have w4 : iblk0 V c 4 t = V c main_v21 := funext fun (y : S128x128.Idx) => by
    show V c main_v21 (((cfg0.win 4).blk t).view.emb y) = V c main_v21 y
    refine congrArg (V c main_v21) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  have w5 : iblk0 V c 5 t = V c main_v24 := funext fun (y : S32x128.Idx) => by
    show V c main_v24 (((cfg0.win 5).blk t).view.emb y) = V c main_v24 y
    refine congrArg (V c main_v24) (funext fun a => Fin.ext ?_)
    match a with
    | ⟨0, _⟩ => show win0_5.index t (0 : Fin 2) * 32 + 1 * (y 0).val = (y 0).val; omega
    | ⟨1, _⟩ => show win0_5.index t (1 : Fin 2) * 128 + 1 * (y 1).val = (y 1).val; omega
  have b6 : (fun q => iblk0 V c 6 t (ix2 (0 : Fin 1) q)) = fun q => V c main_v27 (ix2 (0 : Fin 1) q) := funext fun (k : Fin 128) => by
    show V c main_v27 (((cfg0.win 6).blk t).view.emb (ix2 (0 : Fin 1) k)) = V c main_v27 (ix2 (0 : Fin 1) k)
    refine congrArg (V c main_v27) (funext fun a => Fin.ext ?_)
    match a with
    | ⟨0, _⟩ => show win0_6.index t (0 : Fin 2) * 1 + 1 * 0 = 0; omega
    | ⟨1, _⟩ => show win0_6.index t (1 : Fin 2) * 128 + 1 * k.val = k.val; omega
  rw [r0, r1, r2, w3, w4, w5, b6]

/-- An index of the output array is in point t's block iff each coordinate is in the block's range. -/
theorem mem_blk (t : Fin cfg0.N) (i : S800000x128.Idx) :
    i ∈ ((cfg0.win 7).blk t).view.set ↔ ∀ a : Fin 2, win0_7.index t a * S16000x128.size a ≤ (i a).val
      ∧ (i a).val < win0_7.index t a * S16000x128.size a + S16000x128.size a := by
  show i ∈ ((View.whole main_v28).slice (win0_7.rect t)).set ↔ _
  rw [View.set_slice_whole, Rect.mem_set_unit]
  exact Iff.rfl

theorem Npts : cfg0.N = 50 := rfl

/-- The fifty blocks of 16000 rows tile the 800000 rows: row r is in the block of point r / 16000. -/
theorem cover (i : S800000x128.Idx) :
    ∃ t : Fin cfg0.N, (cfg0.win 7).flush t = true ∧ i ∈ ((cfg0.win 7).blk t).view.set := by
  have hi0 : (i 0).val < 800000 := (i 0).isLt
  have hi1 : (i 1).val < 128 := (i 1).isLt
  have hlt : (i 0).val / 16000 < cfg0.N := by rw [Npts]; omega
  obtain ⟨-, -, -, -, -, -, -, -, -, -, -, -, -, -, e70, e71⟩ := idx ⟨(i 0).val / 16000, hlt⟩
  have e70' : win0_7.index ⟨(i 0).val / 16000, hlt⟩ (0 : Fin 2) = (i 0).val / 16000 := e70
  refine ⟨⟨(i 0).val / 16000, hlt⟩, flush0_7 _, ?_⟩
  rw [mem_blk]
  intro a
  match a with
  | ⟨0, _⟩ =>
    show win0_7.index ⟨(i 0).val / 16000, hlt⟩ (0 : Fin 2) * 16000 ≤ (i 0).val
      ∧ (i 0).val < win0_7.index ⟨(i 0).val / 16000, hlt⟩ (0 : Fin 2) * 16000 + 16000
    omega
  | ⟨1, _⟩ =>
    show win0_7.index ⟨(i 0).val / 16000, hlt⟩ (1 : Fin 2) * 128 ≤ (i 1).val
      ∧ (i 1).val < win0_7.index ⟨(i 0).val / 16000, hlt⟩ (1 : Fin 2) * 128 + 128
    omega

/-- THE MESSAGE ARRAY after the launch: every edge's message, of the arrays as the launch finds them. -/
theorem final (c : Dev nD) : (dat0 V c).arrAt 7 cfg0.N = G V c :=
  (dat0 V c).arrAt_eq_of_cover 7 (G V c) (fun t _ => flushed V c t) cover

end R0

end Cert.KernelIdeal.KV

end
-- ==== Proof.KGru1.lean ====
/-
  The update launch of round one: what its output array holds afterwards.

  The launch walks twenty-five grid points; point t stages rows 2000·t … 2000·t + 1999 of the aggregated messages
  and of the node states, the two weight matrices and the two bias rows whole, and writes back the same rows of
  the new states.  The body's stored value at (p, q) is the gated update of row p of the two staged blocks: the
  two products go through the matrix unit into a zero accumulator (the narrowing of their operands is the identity
  on exact values), the three gates are the column ranges from 0, 128 and 256 of the 384-wide pre-activations,
  and the logistic function and tanh are applied entry by entry.  Row p of block t is row 2000·t + p of the
  array, and the twenty-five blocks tile the 50000 rows, so after the launch the output array holds every node's
  update as a function of the operand arrays the launch found.
-/
import proofs.«149155_j68058051772923_1_alg».proof.Proof.Gen.KernelIdeal.Frame
import proofs.«149155_j68058051772923_1_alg».proof.Proof.RowSpec
import Idealize.ShloMosaic.Lib.Pipeline.Value
import Idealize.ShloMosaic.Lib.ValueLayout

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.RowDot Cert.RowSpec

namespace R1

variable (V : (c : Dev nD) → (b : Ref sig .tc) → Buf (Elt Ideal) ((c : Thread nD τ).loc b))

theorem hz : (![0, 0] : Fin 2 → Nat) = fun _ => 0 := funext fun a => by fin_cases a <;> rfl

theorem d3 : dot_S2000x128_S128x384_S2000x384_1_0_0_1_n_n = DotDims.plain 2000 128 384 := rfl

theorem truncf_ideal {s : Shape} (x : FVec Ideal s .f32) (h : FTy.bits .bf16 < FTy.bits .f32) :
    (truncf .bf16 x h : FVec Ideal s .bf16) = x := rfl

theorem logistic_at {s : Shape} (x : FVec Ideal s .f32) (i : s.Idx) : logistic x i = Ideal.logistic (x i) := rfl
theorem tanh_at {s : Shape} (x : FVec Ideal s .f32) (i : s.Idx) : tanh x i = Ideal.tanh (x i) := rfl

/-- A block's pre-activations at (p, c): row p of the block times the matrix, plus the bias row. -/
theorem pre_blk {φ₁ φ₂ : FTy} (x : FVec Ideal S2000x128 φ₁) (w : FVec Ideal S128x384 φ₂) (b : FVec Ideal S1x384 .f32) (p : Fin 2000) (c : Fin 384) :
    matmul (DotDims.plain 2000 128 384) none x w (constant S2000x384 .f32 0x00000000#32) (ix2 p c)
        + broadcastTo S2000x384 b broadcasts_S1x384_S2000x384 (ix2 p c)
      = pre (rowOf x p) w (fun c => b (ix2 (0 : Fin 1) c)) c := by
  unfold pre
  refine congrArg₂ (fun a b : EReal => a + b) ?_ ?_
  · exact matmul_plain_zero_apply none x w (ix2 p c)
  · exact broadcastTo_1b_ab_apply b broadcasts_S1x384_S2000x384 p c

/-- The three gates are the column ranges starting at 0, 128 and 256. -/
theorem gate0_at (X : FVec Ideal S2000x384 .f32) (h : S2000x384.Slices ![0, 0] S2000x128) (p : Fin 2000) (q : Fin 128) :
    extractStridedSlice S2000x128 ![0, 0] X h (ix2 p q) = X (ix2 p (gate 0 (by decide) q)) :=
  slice2_axis1_apply 0 X h p q (gate 0 (by decide) q) rfl
theorem gate128_at (X : FVec Ideal S2000x384 .f32) (h : S2000x384.Slices ![0, 128] S2000x128) (p : Fin 2000) (q : Fin 128) :
    extractStridedSlice S2000x128 ![0, 128] X h (ix2 p q) = X (ix2 p (gate 128 (by decide) q)) :=
  slice2_axis1_apply 128 X h p q (gate 128 (by decide) q) rfl
theorem gate256_at (X : FVec Ideal S2000x384 .f32) (h : S2000x384.Slices ![0, 256] S2000x128) (p : Fin 2000) (q : Fin 128) :
    extractStridedSlice S2000x128 ![0, 256] X h (ix2 p q) = X (ix2 p (gate 256 (by decide) q)) :=
  slice2_axis1_apply 256 X h p q (gate 256 (by decide) q) rfl

/-- The update body's stored value at (p, q): the gated update of row p of the message block and the state block. -/
theorem pay (x0 x1 : Vec Ideal S2000x128 .f32) (x2 x3 : Vec Ideal S128x384 .f32) (x4 x5 : Vec Ideal S1x384 .f32)
    (p : Fin 2000) (q : Fin 128) :
    k1_pay1 (F := Ideal) x0 x1 x2 x3 x4 x5 (ix2 p q)
      = gruRow (rowOf x0 p) (rowOf x1 p) x2 x3 (fun c => x4 (ix2 (0 : Fin 1) c)) (fun c => x5 (ix2 (0 : Fin 1) c)) q := by
  unfold k1_pay1 gruRow
  simp only [shapeCast_self, d3, truncf_ideal]
  simp only [addf_apply, mulf_apply, subf_apply, logistic_at, tanh_at, broadcast_apply, gate0_at, gate128_at, gate256_at, pre_blk]
  rfl

/-- The printed index maps over the grid: the two node-indexed inputs and the output move one block of rows per
    point; the two weight matrices and the two bias rows stay at block (0, 0). -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Every node's update, of the arrays as the launch finds them. -/
def G (c : Dev nD) : S50000x128.Idx → EReal :=
  gruArr (V c main_v31) (V c main_arg0) (V c main_v33) (V c main_v35)
    (fun u => V c main_v38 (ix2 (0 : Fin 1) u)) (fun u => V c main_v41 (ix2 (0 : Fin 1) u))

set_option maxHeartbeats 2000000 in
/-- What point t writes back is block t of the updates. -/
theorem flushed (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x384) hz, View.ld_unit_zero (S := S1x384) hz]
  obtain ⟨e00, e01, e10, e11, e20, e21, e30, e31, e40, e41, e50, e51, e60, e61⟩ := idx t
  refine funext fun (j : S2000x128.Idx) => ?_
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 p q)
    = G V c (((cfg1.win 6).blk t).view.emb (ix2 p q))
  refine (pay _ _ _ _ _ _ p q).trans ?_
  have hp : p.val < 2000 := p.isLt
  have hq : q.val < 128 := q.isLt
  have ht : t.val < 25 := t.isLt
  have ho : ((cfg1.win 6).blk t).view.emb (ix2 p q) = ix2 (⟨t.val * 2000 + p.val, by omega⟩ : Fin 50000) q := by
    funext a; apply Fin.ext
    match a with
    | ⟨0, _⟩ => show win1_6.index t (0 : Fin 2) * 2000 + 1 * p.val = t.val * 2000 + p.val; omega
    | ⟨1, _⟩ => show win1_6.index t (1 : Fin 2) * 128 + 1 * q.val = q.val; omega
  rw [ho]
  show gruRow (rowOf (iblk1 V c 0 t) p) (rowOf (iblk1 V c 1 t) p) (iblk1 V c 2 t) (iblk1 V c 3 t)
      (fun u => iblk1 V c 4 t (ix2 (0 : Fin 1) u)) (fun u => iblk1 V c 5 t (ix2 (0 : Fin 1) u)) q
    = gruRow (rowOf (V c main_v31) ⟨t.val * 2000 + p.val, by omega⟩) (rowOf (V c main_arg0) ⟨t.val * 2000 + p.val, by omega⟩)
        (V c main_v33) (V c main_v35) (fun u => V c main_v38 (ix2 (0 : Fin 1) u)) (fun u => V c main_v41 (ix2 (0 : Fin 1) u)) q
  have r0 : rowOf (iblk1 V c 0 t) p = rowOf (V c main_v31) ⟨t.val * 2000 + p.val, by omega⟩ := funext fun k => by
    show V c main_v31 (((cfg1.win 0).blk t).view.emb (ix2 p k)) = V c main_v31 (ix2 ⟨t.val * 2000 + p.val, by omega⟩ k)
    refine congrArg (V c main_v31) (funext fun a => Fin.ext ?_)
    have hk : k.val < 128 := k.isLt
    match a with
    | ⟨0, _⟩ => show win1_0.index t (0 : Fin 2) * 2000 + 1 * p.val = t.val * 2000 + p.val; omega
    | ⟨1, _⟩ => show win1_0.index t (1 : Fin 2) * 128 + 1 * k.val = k.val; omega
  have r1 : rowOf (iblk1 V c 1 t) p = rowOf (V c main_arg0) ⟨t.val * 2000 + p.val, by omega⟩ := funext fun k => by
    show V c main_arg0 (((cfg1.win 1).blk t).view.emb (ix2 p k)) = V c main_arg0 (ix2 ⟨t.val * 2000 + p.val, by omega⟩ k)
    refine congrArg (V c main_arg0) (funext fun a => Fin.ext ?_)
    have hk : k.val < 128 := k.isLt
    match a with
    | ⟨0, _⟩ => show win1_1.index t (0 : Fin 2) * 2000 + 1 * p.val = t.val * 2000 + p.val; omega
    | ⟨1, _⟩ => show win1_1.index t (1 : Fin 2) * 128 + 1 * k.val = k.val; omega
  have w2 : iblk1 V c 2 t = V c main_v33 := funext fun (y : S128x384.Idx) => by
    show V c main_v33 (((cfg1.win 2).blk t).view.emb y) = V c main_v33 y
    refine congrArg (V c main_v33) (funext fun a => Fin.ext ?_)
    match a with
    | ⟨0, _⟩ => show win1_2.index t (0 : Fin 2) * 128 + 1 * (y 0).val = (y 0).val; omega
    | ⟨1, _⟩ => show win1_2.index t (1 : Fin 2) * 384 + 1 * (y 1).val = (y 1).val; omega
  have w3 : iblk1 V c 3 t = V c main_v35 := funext fun (y : S128x384.Idx) => by
    show V c main_v35 (((cfg1.win 3).blk t).view.emb y) = V c main_v35 y
    refine congrArg (V c main_v35) (funext fun a => Fin.ext ?_)
    match a with
    | ⟨0, _⟩ => show win1_3.index t (0 : Fin 2) * 128 + 1 * (y 0).val = (y 0).val; omega
    | ⟨1, _⟩ => show win1_3.index t (1 : Fin 2) * 384 + 1 * (y 1).val = (y 1).val; omega
  have b4 : (fun u => iblk1 V c 4 t (ix2 (0 : Fin 1) u)) = fun u => V c main_v38 (ix2 (0 : Fin 1) u) := funext fun (k : Fin 384) => by
    show V c main_v38 (((cfg1.win 4).blk t).view.emb (ix2 (0 : Fin 1) k)) = V c main_v38 (ix2 (0 : Fin 1) k)
    refine congrArg (V c main_v38) (funext fun a => Fin.ext ?_)
    match a with
    | ⟨0, _⟩ => show win1_4.index t (0 : Fin 2) * 1 + 1 * 0 = 0; omega
    | ⟨1, _⟩ => show win1_4.index t (1 : Fin 2) * 384 + 1 * k.val = k.val; omega
  have b5 : (fun u => iblk1 V c 5 t (ix2 (0 : Fin 1) u)) = fun u => V c main_v41 (ix2 (0 : Fin 1) u) := funext fun (k : Fin 384) => by
    show V c main_v41 (((cfg1.win 5).blk t).view.emb (ix2 (0 : Fin 1) k)) = V c main_v41 (ix2 (0 : Fin 1) k)
    refine congrArg (V c main_v41) (funext fun a => Fin.ext ?_)
    match a with
    | ⟨0, _⟩ => show win1_5.index t (0 : Fin 2) * 1 + 1 * 0 = 0; omega
    | ⟨1, _⟩ => show win1_5.index t (1 : Fin 2) * 384 + 1 * k.val = k.val; omega
  rw [r0, r1, w2, w3, b4, b5]

/-- An index of the output array is in point t's block iff each coordinate is in the block's range. -/
theorem mem_blk (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v42).slice (win1_6.rect t)).set ↔ _
  rw [View.set_slice_whole, Rect.mem_set_unit]
  exact Iff.rfl

theorem Npts : cfg1.N = 25 := rfl

/-- The twenty-five blocks of 2000 rows tile the 50000 rows: row r is in the block of point r / 2000. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hlt : (i 0).val / 2000 < cfg1.N := by rw [Npts]; omega
  obtain ⟨-, -, -, -, -, -, -, -, -, -, -, -, e60, e61⟩ := idx ⟨(i 0).val / 2000, hlt⟩
  have e60' : win1_6.index ⟨(i 0).val / 2000, hlt⟩ (0 : Fin 2) = (i 0).val / 2000 := e60
  refine ⟨⟨(i 0).val / 2000, hlt⟩, flush1_6 _, ?_⟩
  rw [mem_blk]
  intro a
  match a with
  | ⟨0, _⟩ =>
    show win1_6.index ⟨(i 0).val / 2000, hlt⟩ (0 : Fin 2) * 2000 ≤ (i 0).val
      ∧ (i 0).val < win1_6.index ⟨(i 0).val / 2000, hlt⟩ (0 : Fin 2) * 2000 + 2000
    omega
  | ⟨1, _⟩ =>
    show win1_6.index ⟨(i 0).val / 2000, hlt⟩ (1 : Fin 2) * 128 ≤ (i 1).val
      ∧ (i 1).val < win1_6.index ⟨(i 0).val / 2000, hlt⟩ (1 : Fin 2) * 128 + 128
    omega

/-- THE STATE ARRAY after the launch: every node's update, of the arrays as the launch finds them. -/
theorem final (c : Dev nD) : (dat1 V c).arrAt 6 cfg1.N = G V c :=
  (dat1 V c).arrAt_eq_of_cover 6 (G V c) (fun t _ => flushed V c t) cover

end R1

end Cert.KernelIdeal.KV

end
-- ==== Proof.KMsg2.lean ====
/-
  The message launch of round two: what its output array holds afterwards.

  The launch walks fifty grid points; point t stages rows 16000·t … 16000·t + 15999 of the three edge-indexed
  operands (the gathered source rows, the gathered destination rows, the edge features), the three weight
  matrices and the bias row whole, and writes back the same rows of the output.  The body's stored value at
  (p, q) is the message of row p of the staged blocks — three rows times three matrices plus the bias, through the
  matrix unit into a zero accumulator —, and row p of block t is row 16000·t + p of the array.  The fifty blocks
  tile the 800000 rows, so after the launch the output array holds every edge's message as a function of the
  operand arrays the launch found.
-/
import proofs.«149155_j68058051772923_1_alg».proof.Proof.Gen.KernelIdeal.Frame
import proofs.«149155_j68058051772923_1_alg».proof.Proof.RowSpec
import Idealize.ShloMosaic.Lib.Pipeline.Value
import Idealize.ShloMosaic.Lib.ValueLayout

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.RowDot Cert.RowSpec

namespace R2

variable (V : (c : Dev nD) → (b : Ref sig .tc) → Buf (Elt Ideal) ((c : Thread nD τ).loc b))

theorem hz : (![0, 0] : Fin 2 → Nat) = fun _ => 0 := funext fun a => by fin_cases a <;> rfl

theorem d1 : dot_S16000x128_S128x128_S16000x128_1_0_0_1_n_n = DotDims.plain 16000 128 128 := rfl
theorem d2 : dot_S16000x32_S32x128_S16000x128_1_0_0_1_n_n = DotDims.plain 16000 32 128 := rfl

/-- The message body's stored value at (p, q): the message of row p of the three edge blocks. -/
theorem pay (x0 x1 : Vec Ideal S16000x128 .bf16) (x2 : Vec Ideal S16000x32 .bf16) (x3 x4 : Vec Ideal S128x128 .bf16)
    (x5 : Vec Ideal S32x128 .bf16) (x6 : Vec Ideal S1x128 .f32) (p : Fin 16000) (q : Fin 128) :
    k2_pay1 (F := Ideal) x0 x1 x2 x3 x4 x5 x6 (ix2 p q)
      = msgRow (rowOf x0 p) (rowOf x1 p) (rowOf x2 p) x3 x4 x5 (fun q => x6 (ix2 (0 : Fin 1) q)) q := by
  unfold k2_pay1 msgRow
  simp only [shapeCast_self, d1, d2]
  refine congrArg₂ (fun a b : EReal => a + b) (congrArg₂ (fun a b : EReal => a + b) (congrArg₂ (fun a b : EReal => a + b) ?_ ?_) ?_) ?_
  · exact matmul_plain_zero_apply none x0 x3 (ix2 p q)
  · exact matmul_plain_zero_apply none x1 x4 (ix2 p q)
  · exact matmul_plain_zero_apply none x2 x5 (ix2 p q)
  · exact broadcastTo_1b_ab_apply x6 broadcasts_S1x128_S16000x128 p q

/-- The printed index maps over the grid: the three edge-indexed inputs and the output move one block of rows per
    point; the weights and the bias stay at block (0, 0). -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Every edge's message, of the arrays as the launch finds them. -/
def G (c : Dev nD) : S800000x128.Idx → EReal :=
  msgArr (V c main_v50) (V c main_v57) (V c main_v0) (V c main_v60) (V c main_v63) (V c main_v66)
    (fun q => V c main_v69 (ix2 (0 : Fin 1) q))

set_option maxHeartbeats 2000000 in
/-- What point t writes back is block t of the messages. -/
theorem flushed (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S16000x128) hz, View.ld_unit_zero (S := S16000x32) hz, View.ld_unit_zero (S := S128x128) hz,
    View.ld_unit_zero (S := S32x128) hz, View.ld_unit_zero (S := S1x128) hz]
  obtain ⟨e00, e01, e10, e11, e20, e21, e30, e31, e40, e41, e50, e51, e60, e61, e70, e71⟩ := idx t
  refine funext fun (j : S16000x128.Idx) => ?_
  obtain ⟨p, q, rfl⟩ : ∃ (p : Fin 16000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t) (iblk2 V c 6 t) (ix2 p q)
    = G V c (((cfg2.win 7).blk t).view.emb (ix2 p q))
  refine (pay _ _ _ _ _ _ _ p q).trans ?_
  have hp : p.val < 16000 := p.isLt
  have hq : q.val < 128 := q.isLt
  have ht : t.val < 50 := t.isLt
  -- the output entry's place in the whole array
  have ho : ((cfg2.win 7).blk t).view.emb (ix2 p q) = ix2 (⟨t.val * 16000 + p.val, by omega⟩ : Fin 800000) q := by
    funext a; apply Fin.ext
    match a with
    | ⟨0, _⟩ => show win2_7.index t (0 : Fin 2) * 16000 + 1 * p.val = t.val * 16000 + p.val; omega
    | ⟨1, _⟩ => show win2_7.index t (1 : Fin 2) * 128 + 1 * q.val = q.val; omega
  rw [ho]
  show msgRow (rowOf (iblk2 V c 0 t) p) (rowOf (iblk2 V c 1 t) p) (rowOf (iblk2 V c 2 t) p) (iblk2 V c 3 t) (iblk2 V c 4 t)
      (iblk2 V c 5 t) (fun q => iblk2 V c 6 t (ix2 (0 : Fin 1) q)) q
    = msgRow (rowOf (V c main_v50) ⟨t.val * 16000 + p.val, by omega⟩) (rowOf (V c main_v57) ⟨t.val * 16000 + p.val, by omega⟩)
        (rowOf (V c main_v0) ⟨t.val * 16000 + p.val, by omega⟩) (V c main_v60) (V c main_v63) (V c main_v66)
        (fun q => V c main_v69 (ix2 (0 : Fin 1) q)) q
  have r0 : rowOf (iblk2 V c 0 t) p = rowOf (V c main_v50) ⟨t.val * 16000 + p.val, by omega⟩ := funext fun k => by
    show V c main_v50 (((cfg2.win 0).blk t).view.emb (ix2 p k)) = V c main_v50 (ix2 ⟨t.val * 16000 + p.val, by omega⟩ k)
    refine congrArg (V c main_v50) (funext fun a => Fin.ext ?_)
    have hk : k.val < 128 := k.isLt
    match a with
    | ⟨0, _⟩ => show win2_0.index t (0 : Fin 2) * 16000 + 1 * p.val = t.val * 16000 + p.val; omega
    | ⟨1, _⟩ => show win2_0.index t (1 : Fin 2) * 128 + 1 * k.val = k.val; omega
  have r1 : rowOf (iblk2 V c 1 t) p = rowOf (V c main_v57) ⟨t.val * 16000 + p.val, by omega⟩ := funext fun k => by
    show V c main_v57 (((cfg2.win 1).blk t).view.emb (ix2 p k)) = V c main_v57 (ix2 ⟨t.val * 16000 + p.val, by omega⟩ k)
    refine congrArg (V c main_v57) (funext fun a => Fin.ext ?_)
    have hk : k.val < 128 := k.isLt
    match a with
    | ⟨0, _⟩ => show win2_1.index t (0 : Fin 2) * 16000 + 1 * p.val = t.val * 16000 + p.val; omega
    | ⟨1, _⟩ => show win2_1.index t (1 : Fin 2) * 128 + 1 * k.val = k.val; omega
  have r2 : rowOf (iblk2 V c 2 t) p = rowOf (V c main_v0) ⟨t.val * 16000 + p.val, by omega⟩ := funext fun k => by
    show V c main_v0 (((cfg2.win 2).blk t).view.emb (ix2 p k)) = V c main_v0 (ix2 ⟨t.val * 16000 + p.val, by omega⟩ k)
    refine congrArg (V c main_v0) (funext fun a => Fin.ext ?_)
    have hk : k.val < 32 := k.isLt
    match a with
    | ⟨0, _⟩ => show win2_2.index t (0 : Fin 2) * 16000 + 1 * p.val = t.val * 16000 + p.val; omega
    | ⟨1, _⟩ => show win2_2.index t (1 : Fin 2) * 32 + 1 * k.val = k.val; omega
  have w3 : iblk2 V c 3 t = V c main_v60 := funext fun (y : S128x128.Idx) => by
    show V c main_v60 (((cfg2.win 3).blk t).view.emb y) = V c main_v60 y
    refine congrArg (V c main_v60) (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  have w4 : iblk2 V c 4 t = V c main_v63 := funext fun (y : S128x128.Idx) => by
    show V c main_v63 (((cfg2.win 4).blk t).view.emb y) = V c main_v63 y
    refine congrArg (V c main_v63) (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  have w5 : iblk2 V c 5 t = V c main_v66 := funext fun (y : S32x128.Idx) => by
    show V c main_v66 (((cfg2.win 5).blk t).view.emb y) = V c main_v66 y
    refine congrArg (V c main_v66) (funext fun a => Fin.ext ?_)
    match a with
    | ⟨0, _⟩ => show win2_5.index t (0 : Fin 2) * 32 + 1 * (y 0).val = (y 0).val; omega
    | ⟨1, _⟩ => show win2_5.index t (1 : Fin 2) * 128 + 1 * (y 1).val = (y 1).val; omega
  have b6 : (fun q => iblk2 V c 6 t (ix2 (0 : Fin 1) q)) = fun q => V c main_v69 (ix2 (0 : Fin 1) q) := funext fun (k : Fin 128) => by
    show V c main_v69 (((cfg2.win 6).blk t).view.emb (ix2 (0 : Fin 1) k)) = V c main_v69 (ix2 (0 : Fin 1) k)
    refine congrArg (V c main_v69) (funext fun a => Fin.ext ?_)
    match a with
    | ⟨0, _⟩ => show win2_6.index t (0 : Fin 2) * 1 + 1 * 0 = 0; omega
    | ⟨1, _⟩ => show win2_6.index t (1 : Fin 2) * 128 + 1 * k.val = k.val; omega
  rw [r0, r1, r2, w3, w4, w5, b6]

/-- An index of the output array is in point t's block iff each coordinate is in the block's range. -/
theorem mem_blk (t : Fin cfg2.N) (i : S800000x128.Idx) :
    i ∈ ((cfg2.win 7).blk t).view.set ↔ ∀ a : Fin 2, win2_7.index t a * S16000x128.size a ≤ (i a).val
      ∧ (i a).val < win2_7.index t a * S16000x128.size a + S16000x128.size a := by
  show i ∈ ((View.whole main_v70).slice (win2_7.rect t)).set ↔ _
  rw [View.set_slice_whole, Rect.mem_set_unit]
  exact Iff.rfl

theorem Npts : cfg2.N = 50 := rfl

/-- The fifty blocks of 16000 rows tile the 800000 rows: row r is in the block of point r / 16000. -/
theorem cover (i : S800000x128.Idx) :
    ∃ t : Fin cfg2.N, (cfg2.win 7).flush t = true ∧ i ∈ ((cfg2.win 7).blk t).view.set := by
  have hi0 : (i 0).val < 800000 := (i 0).isLt
  have hi1 : (i 1).val < 128 := (i 1).isLt
  have hlt : (i 0).val / 16000 < cfg2.N := by rw [Npts]; omega
  obtain ⟨-, -, -, -, -, -, -, -, -, -, -, -, -, -, e70, e71⟩ := idx ⟨(i 0).val / 16000, hlt⟩
  have e70' : win2_7.index ⟨(i 0).val / 16000, hlt⟩ (0 : Fin 2) = (i 0).val / 16000 := e70
  refine ⟨⟨(i 0).val / 16000, hlt⟩, flush2_7 _, ?_⟩
  rw [mem_blk]
  intro a
  match a with
  | ⟨0, _⟩ =>
    show win2_7.index ⟨(i 0).val / 16000, hlt⟩ (0 : Fin 2) * 16000 ≤ (i 0).val
      ∧ (i 0).val < win2_7.index ⟨(i 0).val / 16000, hlt⟩ (0 : Fin 2) * 16000 + 16000
    omega
  | ⟨1, _⟩ =>
    show win2_7.index ⟨(i 0).val / 16000, hlt⟩ (1 : Fin 2) * 128 ≤ (i 1).val
      ∧ (i 1).val < win2_7.index ⟨(i 0).val / 16000, hlt⟩ (1 : Fin 2) * 128 + 128
    omega

/-- THE MESSAGE ARRAY after the launch: every edge's message, of the arrays as the launch finds them. -/
theorem final (c : Dev nD) : (dat2 V c).arrAt 7 cfg2.N = G V c :=
  (dat2 V c).arrAt_eq_of_cover 7 (G V c) (fun t _ => flushed V c t) cover

end R2

end Cert.KernelIdeal.KV

end
-- ==== Proof.KGru3.lean ====
/-
  The update launch of round two: what its output array holds afterwards.

  The launch walks twenty-five grid points; point t stages rows 2000·t … 2000·t + 1999 of the aggregated messages
  and of the node states, the two weight matrices and the two bias rows whole, and writes back the same rows of
  the new states.  The body's stored value at (p, q) is the gated update of row p of the two staged blocks: the
  two products go through the matrix unit into a zero accumulator (the narrowing of their operands is the identity
  on exact values), the three gates are the column ranges from 0, 128 and 256 of the 384-wide pre-activations,
  and the logistic function and tanh are applied entry by entry.  Row p of block t is row 2000·t + p of the
  array, and the twenty-five blocks tile the 50000 rows, so after the launch the output array holds every node's
  update as a function of the operand arrays the launch found.
-/
import proofs.«149155_j68058051772923_1_alg».proof.Proof.Gen.KernelIdeal.Frame
import proofs.«149155_j68058051772923_1_alg».proof.Proof.RowSpec
import Idealize.ShloMosaic.Lib.Pipeline.Value
import Idealize.ShloMosaic.Lib.ValueLayout

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.RowDot Cert.RowSpec

namespace R3

variable (V : (c : Dev nD) → (b : Ref sig .tc) → Buf (Elt Ideal) ((c : Thread nD τ).loc b))

theorem hz : (![0, 0] : Fin 2 → Nat) = fun _ => 0 := funext fun a => by fin_cases a <;> rfl

theorem d3 : dot_S2000x128_S128x384_S2000x384_1_0_0_1_n_n = DotDims.plain 2000 128 384 := rfl

theorem truncf_ideal {s : Shape} (x : FVec Ideal s .f32) (h : FTy.bits .bf16 < FTy.bits .f32) :
    (truncf .bf16 x h : FVec Ideal s .bf16) = x := rfl

theorem logistic_at {s : Shape} (x : FVec Ideal s .f32) (i : s.Idx) : logistic x i = Ideal.logistic (x i) := rfl
theorem tanh_at {s : Shape} (x : FVec Ideal s .f32) (i : s.Idx) : tanh x i = Ideal.tanh (x i) := rfl

/-- A block's pre-activations at (p, c): row p of the block times the matrix, plus the bias row. -/
theorem pre_blk {φ₁ φ₂ : FTy} (x : FVec Ideal S2000x128 φ₁) (w : FVec Ideal S128x384 φ₂) (b : FVec Ideal S1x384 .f32) (p : Fin 2000) (c : Fin 384) :
    matmul (DotDims.plain 2000 128 384) none x w (constant S2000x384 .f32 0x00000000#32) (ix2 p c)
        + broadcastTo S2000x384 b broadcasts_S1x384_S2000x384 (ix2 p c)
      = pre (rowOf x p) w (fun c => b (ix2 (0 : Fin 1) c)) c := by
  unfold pre
  refine congrArg₂ (fun a b : EReal => a + b) ?_ ?_
  · exact matmul_plain_zero_apply none x w (ix2 p c)
  · exact broadcastTo_1b_ab_apply b broadcasts_S1x384_S2000x384 p c

/-- The three gates are the column ranges starting at 0, 128 and 256. -/
theorem gate0_at (X : FVec Ideal S2000x384 .f32) (h : S2000x384.Slices ![0, 0] S2000x128) (p : Fin 2000) (q : Fin 128) :
    extractStridedSlice S2000x128 ![0, 0] X h (ix2 p q) = X (ix2 p (gate 0 (by decide) q)) :=
  slice2_axis1_apply 0 X h p q (gate 0 (by decide) q) rfl
theorem gate128_at (X : FVec Ideal S2000x384 .f32) (h : S2000x384.Slices ![0, 128] S2000x128) (p : Fin 2000) (q : Fin 128) :
    extractStridedSlice S2000x128 ![0, 128] X h (ix2 p q) = X (ix2 p (gate 128 (by decide) q)) :=
  slice2_axis1_apply 128 X h p q (gate 128 (by decide) q) rfl
theorem gate256_at (X : FVec Ideal S2000x384 .f32) (h : S2000x384.Slices ![0, 256] S2000x128) (p : Fin 2000) (q : Fin 128) :
    extractStridedSlice S2000x128 ![0, 256] X h (ix2 p q) = X (ix2 p (gate 256 (by decide) q)) :=
  slice2_axis1_apply 256 X h p q (gate 256 (by decide) q) rfl

/-- The update body's stored value at (p, q): the gated update of row p of the message block and the state block. -/
theorem pay (x0 x1 : Vec Ideal S2000x128 .f32) (x2 x3 : Vec Ideal S128x384 .f32) (x4 x5 : Vec Ideal S1x384 .f32)
    (p : Fin 2000) (q : Fin 128) :
    k3_pay1 (F := Ideal) x0 x1 x2 x3 x4 x5 (ix2 p q)
      = gruRow (rowOf x0 p) (rowOf x1 p) x2 x3 (fun c => x4 (ix2 (0 : Fin 1) c)) (fun c => x5 (ix2 (0 : Fin 1) c)) q := by
  unfold k3_pay1 gruRow
  simp only [shapeCast_self, d3, truncf_ideal]
  simp only [addf_apply, mulf_apply, subf_apply, logistic_at, tanh_at, broadcast_apply, gate0_at, gate128_at, gate256_at, pre_blk]
  rfl

/-- The printed index maps over the grid: the two node-indexed inputs and the output move one block of rows per
    point; the two weight matrices and the two bias rows stay at block (0, 0). -/
theorem idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Every node's update, of the arrays as the launch finds them. -/
def G (c : Dev nD) : S50000x128.Idx → EReal :=
  gruArr (V c main_v73) (V c main_v42) (V c main_v75) (V c main_v77)
    (fun u => V c main_v80 (ix2 (0 : Fin 1) u)) (fun u => V c main_v83 (ix2 (0 : Fin 1) u))

set_option maxHeartbeats 2000000 in
/-- What point t writes back is block t of the updates. -/
theorem flushed (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S2000x128) hz, View.ld_unit_zero (S := S128x384) hz, View.ld_unit_zero (S := S1x384) hz]
  obtain ⟨e00, e01, e10, e11, e20, e21, e30, e31, e40, e41, e50, e51, e60, e61⟩ := idx t
  refine funext fun (j : S2000x128.Idx) => ?_
  obtain ⟨p, q, rfl⟩ : ∃ (p : Fin 2000) (q : Fin 128), j = ix2 p q := ⟨j 0, j 1, eq_ix2 j⟩
  show k3_pay1 (F := Ideal) (iblk3 V c 0 t) (iblk3 V c 1 t) (iblk3 V c 2 t) (iblk3 V c 3 t) (iblk3 V c 4 t) (iblk3 V c 5 t) (ix2 p q)
    = G V c (((cfg3.win 6).blk t).view.emb (ix2 p q))
  refine (pay _ _ _ _ _ _ p q).trans ?_
  have hp : p.val < 2000 := p.isLt
  have hq : q.val < 128 := q.isLt
  have ht : t.val < 25 := t.isLt
  have ho : ((cfg3.win 6).blk t).view.emb (ix2 p q) = ix2 (⟨t.val * 2000 + p.val, by omega⟩ : Fin 50000) q := by
    funext a; apply Fin.ext
    match a with
    | ⟨0, _⟩ => show win3_6.index t (0 : Fin 2) * 2000 + 1 * p.val = t.val * 2000 + p.val; omega
    | ⟨1, _⟩ => show win3_6.index t (1 : Fin 2) * 128 + 1 * q.val = q.val; omega
  rw [ho]
  show gruRow (rowOf (iblk3 V c 0 t) p) (rowOf (iblk3 V c 1 t) p) (iblk3 V c 2 t) (iblk3 V c 3 t)
      (fun u => iblk3 V c 4 t (ix2 (0 : Fin 1) u)) (fun u => iblk3 V c 5 t (ix2 (0 : Fin 1) u)) q
    = gruRow (rowOf (V c main_v73) ⟨t.val * 2000 + p.val, by omega⟩) (rowOf (V c main_v42) ⟨t.val * 2000 + p.val, by omega⟩)
        (V c main_v75) (V c main_v77) (fun u => V c main_v80 (ix2 (0 : Fin 1) u)) (fun u => V c main_v83 (ix2 (0 : Fin 1) u)) q
  have r0 : rowOf (iblk3 V c 0 t) p = rowOf (V c main_v73) ⟨t.val * 2000 + p.val, by omega⟩ := funext fun k => by
    show V c main_v73 (((cfg3.win 0).blk t).view.emb (ix2 p k)) = V c main_v73 (ix2 ⟨t.val * 2000 + p.val, by omega⟩ k)
    refine congrArg (V c main_v73) (funext fun a => Fin.ext ?_)
    have hk : k.val < 128 := k.isLt
    match a with
    | ⟨0, _⟩ => show win3_0.index t (0 : Fin 2) * 2000 + 1 * p.val = t.val * 2000 + p.val; omega
    | ⟨1, _⟩ => show win3_0.index t (1 : Fin 2) * 128 + 1 * k.val = k.val; omega
  have r1 : rowOf (iblk3 V c 1 t) p = rowOf (V c main_v42) ⟨t.val * 2000 + p.val, by omega⟩ := funext fun k => by
    show V c main_v42 (((cfg3.win 1).blk t).view.emb (ix2 p k)) = V c main_v42 (ix2 ⟨t.val * 2000 + p.val, by omega⟩ k)
    refine congrArg (V c main_v42) (funext fun a => Fin.ext ?_)
    have hk : k.val < 128 := k.isLt
    match a with
    | ⟨0, _⟩ => show win3_1.index t (0 : Fin 2) * 2000 + 1 * p.val = t.val * 2000 + p.val; omega
    | ⟨1, _⟩ => show win3_1.index t (1 : Fin 2) * 128 + 1 * k.val = k.val; omega
  have w2 : iblk3 V c 2 t = V c main_v75 := funext fun (y : S128x384.Idx) => by
    show V c main_v75 (((cfg3.win 2).blk t).view.emb y) = V c main_v75 y
    refine congrArg (V c main_v75) (funext fun a => Fin.ext ?_)
    match a with
    | ⟨0, _⟩ => show win3_2.index t (0 : Fin 2) * 128 + 1 * (y 0).val = (y 0).val; omega
    | ⟨1, _⟩ => show win3_2.index t (1 : Fin 2) * 384 + 1 * (y 1).val = (y 1).val; omega
  have w3 : iblk3 V c 3 t = V c main_v77 := funext fun (y : S128x384.Idx) => by
    show V c main_v77 (((cfg3.win 3).blk t).view.emb y) = V c main_v77 y
    refine congrArg (V c main_v77) (funext fun a => Fin.ext ?_)
    match a with
    | ⟨0, _⟩ => show win3_3.index t (0 : Fin 2) * 128 + 1 * (y 0).val = (y 0).val; omega
    | ⟨1, _⟩ => show win3_3.index t (1 : Fin 2) * 384 + 1 * (y 1).val = (y 1).val; omega
  have b4 : (fun u => iblk3 V c 4 t (ix2 (0 : Fin 1) u)) = fun u => V c main_v80 (ix2 (0 : Fin 1) u) := funext fun (k : Fin 384) => by
    show V c main_v80 (((cfg3.win 4).blk t).view.emb (ix2 (0 : Fin 1) k)) = V c main_v80 (ix2 (0 : Fin 1) k)
    refine congrArg (V c main_v80) (funext fun a => Fin.ext ?_)
    match a with
    | ⟨0, _⟩ => show win3_4.index t (0 : Fin 2) * 1 + 1 * 0 = 0; omega
    | ⟨1, _⟩ => show win3_4.index t (1 : Fin 2) * 384 + 1 * k.val = k.val; omega
  have b5 : (fun u => iblk3 V c 5 t (ix2 (0 : Fin 1) u)) = fun u => V c main_v83 (ix2 (0 : Fin 1) u) := funext fun (k : Fin 384) => by
    show V c main_v83 (((cfg3.win 5).blk t).view.emb (ix2 (0 : Fin 1) k)) = V c main_v83 (ix2 (0 : Fin 1) k)
    refine congrArg (V c main_v83) (funext fun a => Fin.ext ?_)
    match a with
    | ⟨0, _⟩ => show win3_5.index t (0 : Fin 2) * 1 + 1 * 0 = 0; omega
    | ⟨1, _⟩ => show win3_5.index t (1 : Fin 2) * 384 + 1 * k.val = k.val; omega
  rw [r0, r1, w2, w3, b4, b5]

/-- An index of the output array is in point t's block iff each coordinate is in the block's range. -/
theorem mem_blk (t : Fin cfg3.N) (i : S50000x128.Idx) :
    i ∈ ((cfg3.win 6).blk t).view.set ↔ ∀ a : Fin 2, win3_6.index t a * S2000x128.size a ≤ (i a).val
      ∧ (i a).val < win3_6.index t a * S2000x128.size a + S2000x128.size a := by
  show i ∈ ((View.whole main_v84).slice (win3_6.rect t)).set ↔ _
  rw [View.set_slice_whole, Rect.mem_set_unit]
  exact Iff.rfl

theorem Npts : cfg3.N = 25 := rfl

/-- The twenty-five blocks of 2000 rows tile the 50000 rows: row r is in the block of point r / 2000. -/
theorem cover (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hlt : (i 0).val / 2000 < cfg3.N := by rw [Npts]; omega
  obtain ⟨-, -, -, -, -, -, -, -, -, -, -, -, e60, e61⟩ := idx ⟨(i 0).val / 2000, hlt⟩
  have e60' : win3_6.index ⟨(i 0).val / 2000, hlt⟩ (0 : Fin 2) = (i 0).val / 2000 := e60
  refine ⟨⟨(i 0).val / 2000, hlt⟩, flush3_6 _, ?_⟩
  rw [mem_blk]
  intro a
  match a with
  | ⟨0, _⟩ =>
    show win3_6.index ⟨(i 0).val / 2000, hlt⟩ (0 : Fin 2) * 2000 ≤ (i 0).val
      ∧ (i 0).val < win3_6.index ⟨(i 0).val / 2000, hlt⟩ (0 : Fin 2) * 2000 + 2000
    omega
  | ⟨1, _⟩ =>
    show win3_6.index ⟨(i 0).val / 2000, hlt⟩ (1 : Fin 2) * 128 ≤ (i 1).val
      ∧ (i 1).val < win3_6.index ⟨(i 0).val / 2000, hlt⟩ (1 : Fin 2) * 128 + 128
    omega

/-- THE STATE ARRAY after the launch: every node's update, of the arrays as the launch finds them. -/
theorem final (c : Dev nD) : (dat3 V c).arrAt 6 cfg3.N = G V c :=
  (dat3 V c).arrAt_eq_of_cover 6 (G V c) (fun t _ => flushed V c t) cover

end R3

end Cert.KernelIdeal.KV

end
-- ==== Proof.KHost.lean ====
/-
  What each launch finds in its operand arrays, as functions of the program's arguments and of the previous
  launch's output.

  The program alternates four stretches of whole-array host operations with four launches.  Reading each stretch's
  list of operations at a launch's operand arrays:
  * launch 0 (the first round's messages) reads the state rows, narrowed to bfloat16, gathered at the edges'
    sources and at their destinations; the edge features narrowed to bfloat16; the three blocks of the first
    round's message weights narrowed to bfloat16; and the first round's message bias as one row;
  * launch 1 (the first round's update) reads the per-destination sum of launch 0's output, the state itself, the
    first round's two gate weight matrices and its two gate biases as one row each;
  * launch 2 (the second round's messages) reads the same functions of launch 1's output in place of the state,
    the same narrowed edge features, and the second round's message weights and bias;
  * launch 3 (the second round's update) reads the per-destination sum of launch 2's output, launch 1's output,
    and the second round's gate weights and biases.
  (Narrowing to bfloat16 is the identity at the exact values; it is kept in the terms only so that they are the
  printed operations' own.)  An argument's array is written by no host operation and by no launch, so at every boundary it holds what it
  held when the program started; the same goes for an array written once and only read afterwards.
-/
import proofs.«149155_j68058051772923_1_alg».proof.Proof.Gen.KernelIdeal.Frame
import Idealize.ShloMosaic.Lib.StableHlo.Run
import Idealize.ShloMosaic.PureOps.Ideal

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

/-! ## The operands as functions of the arguments -/

/-- The start indices of a gather: a negative index counts from the end, then a unit column. -/
def startsOf (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- The rows of the node states, narrowed to bfloat16, at the edges' ends given by the index vector x. -/
def gathAt (x : IVec S800000 32) (hv : FVec Ideal S50000x128 .f32) : FVec Ideal S800000x128 .bf16 :=
  Host.gather gather_S50000x128_S800000x1_S800000x128_1_0_n_n_0_1_1128 (truncf .bf16 hv bitsLt_bf16_f32) (startsOf x)

/-- The per-node sum of the edges' messages, by destination. -/
def aggAt (dst : IVec S800000 32) (u : FVec Ideal S800000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst) u

/-- Round 0's source-row message weights, narrowed to bfloat16. -/
def ws0K (a4 : FVec Ideal S2x288x128 .f32) : FVec Ideal S128x128 .bf16 :=
  truncf .bf16 (shapeCast _ (extractStridedSlice S1x128x128 ![0, 0, 0] a4 slices_S2x288x128_S1x128x128_0_0_0) shapeCasts_S1x128x128_S128x128) bitsLt_bf16_f32
/-- Round 0's destination-row message weights, narrowed to bfloat16. -/
def wd0K (a4 : FVec Ideal S2x288x128 .f32) : FVec Ideal S128x128 .bf16 :=
  truncf .bf16 (shapeCast _ (extractStridedSlice S1x128x128 ![0, 128, 0] a4 slices_S2x288x128_S1x128x128_0_128_0) shapeCasts_S1x128x128_S128x128) bitsLt_bf16_f32
/-- Round 0's edge-row message weights, narrowed to bfloat16. -/
def we0K (a4 : FVec Ideal S2x288x128 .f32) : FVec Ideal S32x128 .bf16 :=
  truncf .bf16 (shapeCast _ (extractStridedSlice S1x32x128 ![0, 256, 0] a4 slices_S2x288x128_S1x32x128_0_256_0) shapeCasts_S1x32x128_S32x128) bitsLt_bf16_f32
/-- Round 0's message bias, as one row. -/
def bm0K (a5 : FVec Ideal S2x128 .f32) : FVec Ideal S1x128 .f32 :=
  shapeCast _ (shapeCast _ (extractStridedSlice S1x128 ![0, 0] a5 slices_S2x128_S1x128_0_0) shapeCasts_S1x128_S128) shapeCasts_S128_S1x128
/-- Round 0's input gate weights. -/
def wih0K (a6 : FVec Ideal S2x128x384 .f32) : FVec Ideal S128x384 .f32 :=
  shapeCast _ (extractStridedSlice S1x128x384 ![0, 0, 0] a6 slices_S2x128x384_S1x128x384_0_0_0) shapeCasts_S1x128x384_S128x384
/-- Round 0's state gate weights. -/
def whh0K (a7 : FVec Ideal S2x128x384 .f32) : FVec Ideal S128x384 .f32 :=
  shapeCast _ (extractStridedSlice S1x128x384 ![0, 0, 0] a7 slices_S2x128x384_S1x128x384_0_0_0) shapeCasts_S1x128x384_S128x384
/-- Round 0's input gate bias, as one row. -/
def bih0K (a8 : FVec Ideal S2x384 .f32) : FVec Ideal S1x384 .f32 :=
  shapeCast _ (shapeCast _ (extractStridedSlice S1x384 ![0, 0] a8 slices_S2x384_S1x384_0_0) shapeCasts_S1x384_S384) shapeCasts_S384_S1x384
/-- Round 0's state gate bias, as one row. -/
def bhh0K (a9 : FVec Ideal S2x384 .f32) : FVec Ideal S1x384 .f32 :=
  shapeCast _ (shapeCast _ (extractStridedSlice S1x384 ![0, 0] a9 slices_S2x384_S1x384_0_0) shapeCasts_S1x384_S384) shapeCasts_S384_S1x384

/-- Round 1's source-row message weights, narrowed to bfloat16. -/
def ws1K (a4 : FVec Ideal S2x288x128 .f32) : FVec Ideal S128x128 .bf16 :=
  truncf .bf16 (shapeCast _ (extractStridedSlice S1x128x128 ![1, 0, 0] a4 slices_S2x288x128_S1x128x128_1_0_0) shapeCasts_S1x128x128_S128x128) bitsLt_bf16_f32
/-- Round 1's destination-row message weights, narrowed to bfloat16. -/
def wd1K (a4 : FVec Ideal S2x288x128 .f32) : FVec Ideal S128x128 .bf16 :=
  truncf .bf16 (shapeCast _ (extractStridedSlice S1x128x128 ![1, 128, 0] a4 slices_S2x288x128_S1x128x128_1_128_0) shapeCasts_S1x128x128_S128x128) bitsLt_bf16_f32
/-- Round 1's edge-row message weights, narrowed to bfloat16. -/
def we1K (a4 : FVec Ideal S2x288x128 .f32) : FVec Ideal S32x128 .bf16 :=
  truncf .bf16 (shapeCast _ (extractStridedSlice S1x32x128 ![1, 256, 0] a4 slices_S2x288x128_S1x32x128_1_256_0) shapeCasts_S1x32x128_S32x128) bitsLt_bf16_f32
/-- Round 1's message bias, as one row. -/
def bm1K (a5 : FVec Ideal S2x128 .f32) : FVec Ideal S1x128 .f32 :=
  shapeCast _ (shapeCast _ (extractStridedSlice S1x128 ![1, 0] a5 slices_S2x128_S1x128_1_0) shapeCasts_S1x128_S128) shapeCasts_S128_S1x128
/-- Round 1's input gate weights. -/
def wih1K (a6 : FVec Ideal S2x128x384 .f32) : FVec Ideal S128x384 .f32 :=
  shapeCast _ (extractStridedSlice S1x128x384 ![1, 0, 0] a6 slices_S2x128x384_S1x128x384_1_0_0) shapeCasts_S1x128x384_S128x384
/-- Round 1's state gate weights. -/
def whh1K (a7 : FVec Ideal S2x128x384 .f32) : FVec Ideal S128x384 .f32 :=
  shapeCast _ (extractStridedSlice S1x128x384 ![1, 0, 0] a7 slices_S2x128x384_S1x128x384_1_0_0) shapeCasts_S1x128x384_S128x384
/-- Round 1's input gate bias, as one row. -/
def bih1K (a8 : FVec Ideal S2x384 .f32) : FVec Ideal S1x384 .f32 :=
  shapeCast _ (shapeCast _ (extractStridedSlice S1x384 ![1, 0] a8 slices_S2x384_S1x384_1_0) shapeCasts_S1x384_S384) shapeCasts_S384_S1x384
/-- Round 1's state gate bias, as one row. -/
def bhh1K (a9 : FVec Ideal S2x384 .f32) : FVec Ideal S1x384 .f32 :=
  shapeCast _ (shapeCast _ (extractStridedSlice S1x384 ![1, 0] a9 slices_S2x384_S1x384_1_0) shapeCasts_S1x384_S384) shapeCasts_S384_S1x384

variable (m : (ℓ : Loc nD τ sig) → Buf (Elt Ideal) ℓ) (ρ : Dev nD → PrngReg)

/-! ## Launch 0's operands: the first stretch read at its results -/

theorem V1_v8 (c : Dev nD) : V1 m ρ c main_v8 = gathAt (m ((c : Thread nD τ).loc main_arg2)) (m ((c : Thread nD τ).loc main_arg0)) := by
  show StableHlo.after hostOps0 (W0 m ρ c) (Proc.devRef .tc main_v8) = _
  after_results_simp <;> rfl

theorem V1_v15 (c : Dev nD) : V1 m ρ c main_v15 = gathAt (m ((c : Thread nD τ).loc main_arg3)) (m ((c : Thread nD τ).loc main_arg0)) := by
  show StableHlo.after hostOps0 (W0 m ρ c) (Proc.devRef .tc main_v15) = _
  after_results_simp <;> rfl

theorem V1_v0 (c : Dev nD) : V1 m ρ c main_v0 = (truncf .bf16 (m ((c : Thread nD τ).loc main_arg1) : FVec Ideal S800000x32 .f32) bitsLt_bf16_f32 : FVec Ideal S800000x32 .bf16) := by
  show StableHlo.after hostOps0 (W0 m ρ c) (Proc.devRef .tc main_v0) = _
  after_results_simp <;> rfl

theorem V1_v18 (c : Dev nD) : V1 m ρ c main_v18 = ws0K (m ((c : Thread nD τ).loc main_arg4)) := by
  show StableHlo.after hostOps0 (W0 m ρ c) (Proc.devRef .tc main_v18) = _
  after_results_simp <;> rfl

theorem V1_v21 (c : Dev nD) : V1 m ρ c main_v21 = wd0K (m ((c : Thread nD τ).loc main_arg4)) := by
  show StableHlo.after hostOps0 (W0 m ρ c) (Proc.devRef .tc main_v21) = _
  after_results_simp <;> rfl

theorem V1_v24 (c : Dev nD) : V1 m ρ c main_v24 = we0K (m ((c : Thread nD τ).loc main_arg4)) := by
  show StableHlo.after hostOps0 (W0 m ρ c) (Proc.devRef .tc main_v24) = _
  after_results_simp <;> rfl

theorem V1_v27 (c : Dev nD) : V1 m ρ c main_v27 = bm0K (m ((c : Thread nD τ).loc main_arg5)) := by
  show StableHlo.after hostOps0 (W0 m ρ c) (Proc.devRef .tc main_v27) = _
  after_results_simp <;> rfl

/-! ## An array no operation of a stretch writes, and no launch owns, keeps its contents -/

/-- Closes  after ops V b = V b  for a literal list of operations none of which writes b. -/
macro "unwritten " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem W1_arg0 (c : Dev nD) : W1 m ρ c (Proc.devRef .tc main_arg0) = m ((c : Thread nD τ).loc main_arg0) := by
  refine Eq.trans ?_ (rfl)
  show StableHlo.after hostOps0 (W0 m ρ c) (Proc.devRef .tc main_arg0) = W0 m ρ c (Proc.devRef .tc main_arg0)
  unwritten hostOps0
theorem W1_arg2 (c : Dev nD) : W1 m ρ c (Proc.devRef .tc main_arg2) = m ((c : Thread nD τ).loc main_arg2) := by
  refine Eq.trans ?_ (rfl)
  show StableHlo.after hostOps0 (W0 m ρ c) (Proc.devRef .tc main_arg2) = W0 m ρ c (Proc.devRef .tc main_arg2)
  unwritten hostOps0
theorem W1_arg3 (c : Dev nD) : W1 m ρ c (Proc.devRef .tc main_arg3) = m ((c : Thread nD τ).loc main_arg3) := by
  refine Eq.trans ?_ (rfl)
  show StableHlo.after hostOps0 (W0 m ρ c) (Proc.devRef .tc main_arg3) = W0 m ρ c (Proc.devRef .tc main_arg3)
  unwritten hostOps0
theorem W1_arg4 (c : Dev nD) : W1 m ρ c (Proc.devRef .tc main_arg4) = m ((c : Thread nD τ).loc main_arg4) := by
  refine Eq.trans ?_ (rfl)
  show StableHlo.after hostOps0 (W0 m ρ c) (Proc.devRef .tc main_arg4) = W0 m ρ c (Proc.devRef .tc main_arg4)
  unwritten hostOps0
theorem W1_arg5 (c : Dev nD) : W1 m ρ c (Proc.devRef .tc main_arg5) = m ((c : Thread nD τ).loc main_arg5) := by
  refine Eq.trans ?_ (rfl)
  show StableHlo.after hostOps0 (W0 m ρ c) (Proc.devRef .tc main_arg5) = W0 m ρ c (Proc.devRef .tc main_arg5)
  unwritten hostOps0
theorem W1_arg6 (c : Dev nD) : W1 m ρ c (Proc.devRef .tc main_arg6) = m ((c : Thread nD τ).loc main_arg6) := by
  refine Eq.trans ?_ (rfl)
  show StableHlo.after hostOps0 (W0 m ρ c) (Proc.devRef .tc main_arg6) = W0 m ρ c (Proc.devRef .tc main_arg6)
  unwritten hostOps0
theorem W1_arg7 (c : Dev nD) : W1 m ρ c (Proc.devRef .tc main_arg7) = m ((c : Thread nD τ).loc main_arg7) := by
  refine Eq.trans ?_ (rfl)
  show StableHlo.after hostOps0 (W0 m ρ c) (Proc.devRef .tc main_arg7) = W0 m ρ c (Proc.devRef .tc main_arg7)
  unwritten hostOps0
theorem W1_arg8 (c : Dev nD) : W1 m ρ c (Proc.devRef .tc main_arg8) = m ((c : Thread nD τ).loc main_arg8) := by
  refine Eq.trans ?_ (rfl)
  show StableHlo.after hostOps0 (W0 m ρ c) (Proc.devRef .tc main_arg8) = W0 m ρ c (Proc.devRef .tc main_arg8)
  unwritten hostOps0
theorem W1_arg9 (c : Dev nD) : W1 m ρ c (Proc.devRef .tc main_arg9) = m ((c : Thread nD τ).loc main_arg9) := by
  refine Eq.trans ?_ (rfl)
  show StableHlo.after hostOps0 (W0 m ρ c) (Proc.devRef .tc main_arg9) = W0 m ρ c (Proc.devRef .tc main_arg9)
  unwritten hostOps0
theorem W2_arg0 (c : Dev nD) : W2 m ρ c (Proc.devRef .tc main_arg0) = m ((c : Thread nD τ).loc main_arg0) :=
  (W2_of_ne m ρ c main_arg0 (by decide)).trans (W1_arg0 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W3_arg0 (c : Dev nD) : W3 m ρ c (Proc.devRef .tc main_arg0) = m ((c : Thread nD τ).loc main_arg0) := by
  refine Eq.trans ?_ (W2_arg0 m ρ c)
  show StableHlo.after hostOps1 (W2 m ρ c) (Proc.devRef .tc main_arg0) = W2 m ρ c (Proc.devRef .tc main_arg0)
  unwritten hostOps1
theorem W3_arg2 (c : Dev nD) : W3 m ρ c (Proc.devRef .tc main_arg2) = m ((c : Thread nD τ).loc main_arg2) := by
  refine Eq.trans ?_ (W2_arg2 m ρ c)
  show StableHlo.after hostOps1 (W2 m ρ c) (Proc.devRef .tc main_arg2) = W2 m ρ c (Proc.devRef .tc main_arg2)
  unwritten hostOps1
theorem W3_arg3 (c : Dev nD) : W3 m ρ c (Proc.devRef .tc main_arg3) = m ((c : Thread nD τ).loc main_arg3) := by
  refine Eq.trans ?_ (W2_arg3 m ρ c)
  show StableHlo.after hostOps1 (W2 m ρ c) (Proc.devRef .tc main_arg3) = W2 m ρ c (Proc.devRef .tc main_arg3)
  unwritten hostOps1
theorem W3_arg4 (c : Dev nD) : W3 m ρ c (Proc.devRef .tc main_arg4) = m ((c : Thread nD τ).loc main_arg4) := by
  refine Eq.trans ?_ (W2_arg4 m ρ c)
  show StableHlo.after hostOps1 (W2 m ρ c) (Proc.devRef .tc main_arg4) = W2 m ρ c (Proc.devRef .tc main_arg4)
  unwritten hostOps1
theorem W3_arg5 (c : Dev nD) : W3 m ρ c (Proc.devRef .tc main_arg5) = m ((c : Thread nD τ).loc main_arg5) := by
  refine Eq.trans ?_ (W2_arg5 m ρ c)
  show StableHlo.after hostOps1 (W2 m ρ c) (Proc.devRef .tc main_arg5) = W2 m ρ c (Proc.devRef .tc main_arg5)
  unwritten hostOps1
theorem W3_arg6 (c : Dev nD) : W3 m ρ c (Proc.devRef .tc main_arg6) = m ((c : Thread nD τ).loc main_arg6) := by
  refine Eq.trans ?_ (W2_arg6 m ρ c)
  show StableHlo.after hostOps1 (W2 m ρ c) (Proc.devRef .tc main_arg6) = W2 m ρ c (Proc.devRef .tc main_arg6)
  unwritten hostOps1
theorem W3_arg7 (c : Dev nD) : W3 m ρ c (Proc.devRef .tc main_arg7) = m ((c : Thread nD τ).loc main_arg7) := by
  refine Eq.trans ?_ (W2_arg7 m ρ c)
  show StableHlo.after hostOps1 (W2 m ρ c) (Proc.devRef .tc main_arg7) = W2 m ρ c (Proc.devRef .tc main_arg7)
  unwritten hostOps1
theorem W3_arg8 (c : Dev nD) : W3 m ρ c (Proc.devRef .tc main_arg8) = m ((c : Thread nD τ).loc main_arg8) := by
  refine Eq.trans ?_ (W2_arg8 m ρ c)
  show StableHlo.after hostOps1 (W2 m ρ c) (Proc.devRef .tc main_arg8) = W2 m ρ c (Proc.devRef .tc main_arg8)
  unwritten hostOps1
theorem W3_arg9 (c : Dev nD) : W3 m ρ c (Proc.devRef .tc main_arg9) = m ((c : Thread nD τ).loc main_arg9) := by
  refine Eq.trans ?_ (W2_arg9 m ρ c)
  show StableHlo.after hostOps1 (W2 m ρ c) (Proc.devRef .tc main_arg9) = W2 m ρ c (Proc.devRef .tc main_arg9)
  unwritten hostOps1
theorem W4_arg2 (c : Dev nD) : W4 m ρ c (Proc.devRef .tc main_arg2) = m ((c : Thread nD τ).loc main_arg2) :=
  (W4_of_ne m ρ c main_arg2 (by decide)).trans (W3_arg2 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W5_arg3 (c : Dev nD) : W5 m ρ c (Proc.devRef .tc main_arg3) = m ((c : Thread nD τ).loc main_arg3) := by
  refine Eq.trans ?_ (W4_arg3 m ρ c)
  show StableHlo.after hostOps2 (W4 m ρ c) (Proc.devRef .tc main_arg3) = W4 m ρ c (Proc.devRef .tc main_arg3)
  unwritten hostOps2
theorem W5_arg6 (c : Dev nD) : W5 m ρ c (Proc.devRef .tc main_arg6) = m ((c : Thread nD τ).loc main_arg6) := by
  refine Eq.trans ?_ (W4_arg6 m ρ c)
  show StableHlo.after hostOps2 (W4 m ρ c) (Proc.devRef .tc main_arg6) = W4 m ρ c (Proc.devRef .tc main_arg6)
  unwritten hostOps2
theorem W5_arg7 (c : Dev nD) : W5 m ρ c (Proc.devRef .tc main_arg7) = m ((c : Thread nD τ).loc main_arg7) := by
  refine Eq.trans ?_ (W4_arg7 m ρ c)
  show StableHlo.after hostOps2 (W4 m ρ c) (Proc.devRef .tc main_arg7) = W4 m ρ c (Proc.devRef .tc main_arg7)
  unwritten hostOps2
theorem W5_arg8 (c : Dev nD) : W5 m ρ c (Proc.devRef .tc main_arg8) = m ((c : Thread nD τ).loc main_arg8) := by
  refine Eq.trans ?_ (W4_arg8 m ρ c)
  show StableHlo.after hostOps2 (W4 m ρ c) (Proc.devRef .tc main_arg8) = W4 m ρ c (Proc.devRef .tc main_arg8)
  unwritten hostOps2
theorem W5_arg9 (c : Dev nD) : W5 m ρ c (Proc.devRef .tc main_arg9) = m ((c : Thread nD τ).loc main_arg9) := by
  refine Eq.trans ?_ (W4_arg9 m ρ c)
  show StableHlo.after hostOps2 (W4 m ρ c) (Proc.devRef .tc main_arg9) = W4 m ρ c (Proc.devRef .tc main_arg9)
  unwritten hostOps2
theorem W6_arg3 (c : Dev nD) : W6 m ρ c (Proc.devRef .tc main_arg3) = m ((c : Thread nD τ).loc main_arg3) :=
  (W6_of_ne m ρ c main_arg3 (by decide)).trans (W5_arg3 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W6_arg7 (c : Dev nD) : W6 m ρ c (Proc.devRef .tc main_arg7) = m ((c : Thread nD τ).loc main_arg7) :=
  (W6_of_ne m ρ c main_arg7 (by decide)).trans (W5_arg7 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W6_arg9 (c : Dev nD) : W6 m ρ c (Proc.devRef .tc main_arg9) = m ((c : Thread nD τ).loc main_arg9) :=
  (W6_of_ne m ρ c main_arg9 (by decide)).trans (W5_arg9 m ρ c)

/-! ## Launch 1's operands: the second stretch read at its results -/

theorem V3_v31 (c : Dev nD) : V3 m ρ c main_v31 = aggAt (m ((c : Thread nD τ).loc main_arg3)) (V2 m ρ c main_v28) := by
  show StableHlo.after hostOps1 (W2 m ρ c) (Proc.devRef .tc main_v31) = _
  after_results_simp <;> (rw [W2_arg3 m ρ c]; rfl)

theorem V3_arg0 (c : Dev nD) : V3 m ρ c main_arg0 = m ((c : Thread nD τ).loc main_arg0) := W3_arg0 m ρ c

theorem V3_v33 (c : Dev nD) : V3 m ρ c main_v33 = wih0K (m ((c : Thread nD τ).loc main_arg6)) := by
  show StableHlo.after hostOps1 (W2 m ρ c) (Proc.devRef .tc main_v33) = _
  after_results_simp <;> (rw [W2_arg6 m ρ c]; rfl)

theorem V3_v35 (c : Dev nD) : V3 m ρ c main_v35 = whh0K (m ((c : Thread nD τ).loc main_arg7)) := by
  show StableHlo.after hostOps1 (W2 m ρ c) (Proc.devRef .tc main_v35) = _
  after_results_simp <;> (rw [W2_arg7 m ρ c]; rfl)

theorem V3_v38 (c : Dev nD) : V3 m ρ c main_v38 = bih0K (m ((c : Thread nD τ).loc main_arg8)) := by
  show StableHlo.after hostOps1 (W2 m ρ c) (Proc.devRef .tc main_v38) = _
  after_results_simp <;> (rw [W2_arg8 m ρ c]; rfl)

theorem V3_v41 (c : Dev nD) : V3 m ρ c main_v41 = bhh0K (m ((c : Thread nD τ).loc main_arg9)) := by
  show StableHlo.after hostOps1 (W2 m ρ c) (Proc.devRef .tc main_v41) = _
  after_results_simp <;> (rw [W2_arg9 m ρ c]; rfl)

/-! ## Launch 2's operands: the third stretch read at its results -/

theorem V5_v50 (c : Dev nD) : V5 m ρ c main_v50 = gathAt (m ((c : Thread nD τ).loc main_arg2)) (V4 m ρ c main_v42) := by
  show StableHlo.after hostOps2 (W4 m ρ c) (Proc.devRef .tc main_v50) = _
  after_results_simp <;> (rw [W4_arg2 m ρ c]; rfl)

theorem V5_v57 (c : Dev nD) : V5 m ρ c main_v57 = gathAt (m ((c : Thread nD τ).loc main_arg3)) (V4 m ρ c main_v42) := by
  show StableHlo.after hostOps2 (W4 m ρ c) (Proc.devRef .tc main_v57) = _
  after_results_simp <;> (rw [W4_arg3 m ρ c]; rfl)

/-- The narrowed edge features: written in the first stretch, read by launch 0 through an input window, written by
    nothing afterwards. -/
theorem V5_v0 (c : Dev nD) : V5 m ρ c main_v0 = (truncf .bf16 (m ((c : Thread nD τ).loc main_arg1) : FVec Ideal S800000x32 .f32) bitsLt_bf16_f32 : FVec Ideal S800000x32 .bf16) :=
  calc V5 m ρ c main_v0
    _ = W4 m ρ c (Proc.devRef .tc main_v0) := by
          show StableHlo.after hostOps2 (W4 m ρ c) (Proc.devRef .tc main_v0) = W4 m ρ c (Proc.devRef .tc main_v0)
          unwritten hostOps2
    _ = W3 m ρ c (Proc.devRef .tc main_v0) := W4_of_ne m ρ c main_v0 (by decide)
    _ = W2 m ρ c (Proc.devRef .tc main_v0) := by
          show StableHlo.after hostOps1 (W2 m ρ c) (Proc.devRef .tc main_v0) = W2 m ρ c (Proc.devRef .tc main_v0)
          unwritten hostOps1
    _ = W1 m ρ c (Proc.devRef .tc main_v0) :=
          (W2_arr m ρ c 2).trans (((dat0 (V1 m ρ) c).arrAt_in 2 rfl _).trans (A_eq0 (V1 m ρ) c 2))
    _ = _ := V1_v0 m ρ c

theorem V5_v60 (c : Dev nD) : V5 m ρ c main_v60 = ws1K (m ((c : Thread nD τ).loc main_arg4)) := by
  show StableHlo.after hostOps2 (W4 m ρ c) (Proc.devRef .tc main_v60) = _
  after_results_simp <;> (rw [W4_arg4 m ρ c]; rfl)

theorem V5_v63 (c : Dev nD) : V5 m ρ c main_v63 = wd1K (m ((c : Thread nD τ).loc main_arg4)) := by
  show StableHlo.after hostOps2 (W4 m ρ c) (Proc.devRef .tc main_v63) = _
  after_results_simp <;> (rw [W4_arg4 m ρ c]; rfl)

theorem V5_v66 (c : Dev nD) : V5 m ρ c main_v66 = we1K (m ((c : Thread nD τ).loc main_arg4)) := by
  show StableHlo.after hostOps2 (W4 m ρ c) (Proc.devRef .tc main_v66) = _
  after_results_simp <;> (rw [W4_arg4 m ρ c]; rfl)

theorem V5_v69 (c : Dev nD) : V5 m ρ c main_v69 = bm1K (m ((c : Thread nD τ).loc main_arg5)) := by
  show StableHlo.after hostOps2 (W4 m ρ c) (Proc.devRef .tc main_v69) = _
  after_results_simp <;> (rw [W4_arg5 m ρ c]; rfl)

/-! ## Launch 3's operands: the fourth stretch read at its results -/

theorem V7_v73 (c : Dev nD) : V7 m ρ c main_v73 = aggAt (m ((c : Thread nD τ).loc main_arg3)) (V6 m ρ c main_v70) := by
  show StableHlo.after hostOps3 (W6 m ρ c) (Proc.devRef .tc main_v73) = _
  after_results_simp <;> (rw [W6_arg3 m ρ c]; rfl)

/-- Launch 1's output: written by nothing after launch 1. -/
theorem V7_v42 (c : Dev nD) : V7 m ρ c main_v42 = V4 m ρ c main_v42 :=
  calc V7 m ρ c main_v42
    _ = W6 m ρ c (Proc.devRef .tc main_v42) := by
          show StableHlo.after hostOps3 (W6 m ρ c) (Proc.devRef .tc main_v42) = W6 m ρ c (Proc.devRef .tc main_v42)
          unwritten hostOps3
    _ = W5 m ρ c (Proc.devRef .tc main_v42) := W6_of_ne m ρ c main_v42 (by decide)
    _ = W4 m ρ c (Proc.devRef .tc main_v42) := by
          show StableHlo.after hostOps2 (W4 m ρ c) (Proc.devRef .tc main_v42) = W4 m ρ c (Proc.devRef .tc main_v42)
          unwritten hostOps2
    _ = V4 m ρ c main_v42 := rfl

theorem V7_v75 (c : Dev nD) : V7 m ρ c main_v75 = wih1K (m ((c : Thread nD τ).loc main_arg6)) := by
  show StableHlo.after hostOps3 (W6 m ρ c) (Proc.devRef .tc main_v75) = _
  after_results_simp <;> (rw [W6_arg6 m ρ c]; rfl)

theorem V7_v77 (c : Dev nD) : V7 m ρ c main_v77 = whh1K (m ((c : Thread nD τ).loc main_arg7)) := by
  show StableHlo.after hostOps3 (W6 m ρ c) (Proc.devRef .tc main_v77) = _
  after_results_simp <;> (rw [W6_arg7 m ρ c]; rfl)

theorem V7_v80 (c : Dev nD) : V7 m ρ c main_v80 = bih1K (m ((c : Thread nD τ).loc main_arg8)) := by
  show StableHlo.after hostOps3 (W6 m ρ c) (Proc.devRef .tc main_v80) = _
  after_results_simp <;> (rw [W6_arg8 m ρ c]; rfl)

theorem V7_v83 (c : Dev nD) : V7 m ρ c main_v83 = bhh1K (m ((c : Thread nD τ).loc main_arg9)) := by
  show StableHlo.after hostOps3 (W6 m ρ c) (Proc.devRef .tc main_v83) = _
  after_results_simp <;> (rw [W6_arg9 m ρ c]; rfl)

end Cert.KernelIdeal.KHost

end
-- ==== Proof.KValue.lean ====
/-
  The idealized kernel's result as two rounds of the row-wise specification.

  Reading the program's run backwards from the result buffer: it is the second update launch's output array, which
  holds every node's update of (the aggregated second-round messages, the first round's states); the aggregated
  messages are the host's scatter-add of the second message launch's output array, which holds every edge's message
  of the first round's states gathered at the edges' two ends; and the first round's states are the first update
  launch's output array, read the same way down to the arguments.  Each launch's operand buffers hold what the
  host stretch before it computed from the arguments and the previous launch's output.
-/
import proofs.«149155_j68058051772923_1_alg».proof.Proof.KRun
import proofs.«149155_j68058051772923_1_alg».proof.Proof.KMsg0
import proofs.«149155_j68058051772923_1_alg».proof.Proof.KGru1
import proofs.«149155_j68058051772923_1_alg».proof.Proof.KMsg2
import proofs.«149155_j68058051772923_1_alg».proof.Proof.KGru3
import proofs.«149155_j68058051772923_1_alg».proof.Proof.KHost

set_option maxRecDepth 16384

noncomputable section

namespace Cert.KernelIdeal.KV

open Cert.KernelIdeal Cert.KernelIdeal.Gen Cert.KernelIdeal.KHost
open Idealize.ShloMosaic Idealize.ShloMosaic.TcCoe Idealize.ShloMosaic.ValueIdx Idealize.SL.Sem
open Cert.RowDot Cert.RowSpec

variable (m : (ℓ : Loc nD τ sig) → Buf (Elt Ideal) ℓ) (ρ : Dev nD → PrngReg)

/-- The first round's messages, of the arguments. -/
def msg0 (c : Dev nD) : S800000x128.Idx → EReal :=
  msgArr (gathAt (m ((c : Thread nD τ).loc main_arg2)) (m ((c : Thread nD τ).loc main_arg0))) (gathAt (m ((c : Thread nD τ).loc main_arg3)) (m ((c : Thread nD τ).loc main_arg0))) (truncf .bf16 (m ((c : Thread nD τ).loc main_arg1) : FVec Ideal S800000x32 .f32) bitsLt_bf16_f32 : FVec Ideal S800000x32 .bf16)
    (ws0K (m ((c : Thread nD τ).loc main_arg4))) (wd0K (m ((c : Thread nD τ).loc main_arg4))) (we0K (m ((c : Thread nD τ).loc main_arg4))) (fun q => bm0K (m ((c : Thread nD τ).loc main_arg5)) (ix2 (0 : Fin 1) q))

/-- The states after the first round, of the arguments. -/
def hv1 (c : Dev nD) : S50000x128.Idx → EReal :=
  gruArr (aggAt (m ((c : Thread nD τ).loc main_arg3)) (msg0 m c)) (m ((c : Thread nD τ).loc main_arg0)) (wih0K (m ((c : Thread nD τ).loc main_arg6))) (whh0K (m ((c : Thread nD τ).loc main_arg7)))
    (fun u => bih0K (m ((c : Thread nD τ).loc main_arg8)) (ix2 (0 : Fin 1) u)) (fun u => bhh0K (m ((c : Thread nD τ).loc main_arg9)) (ix2 (0 : Fin 1) u))

/-- The second round's messages, of the arguments. -/
def msg1 (c : Dev nD) : S800000x128.Idx → EReal :=
  msgArr (gathAt (m ((c : Thread nD τ).loc main_arg2)) (hv1 m c)) (gathAt (m ((c : Thread nD τ).loc main_arg3)) (hv1 m c)) (truncf .bf16 (m ((c : Thread nD τ).loc main_arg1) : FVec Ideal S800000x32 .f32) bitsLt_bf16_f32 : FVec Ideal S800000x32 .bf16)
    (ws1K (m ((c : Thread nD τ).loc main_arg4))) (wd1K (m ((c : Thread nD τ).loc main_arg4))) (we1K (m ((c : Thread nD τ).loc main_arg4))) (fun q => bm1K (m ((c : Thread nD τ).loc main_arg5)) (ix2 (0 : Fin 1) q))

/-- The states after the second round, of the arguments. -/
def hv2 (c : Dev nD) : S50000x128.Idx → EReal :=
  gruArr (aggAt (m ((c : Thread nD τ).loc main_arg3)) (msg1 m c)) (hv1 m c) (wih1K (m ((c : Thread nD τ).loc main_arg6))) (whh1K (m ((c : Thread nD τ).loc main_arg7)))
    (fun u => bih1K (m ((c : Thread nD τ).loc main_arg8)) (ix2 (0 : Fin 1) u)) (fun u => bhh1K (m ((c : Thread nD τ).loc main_arg9)) (ix2 (0 : Fin 1) u))

/-- The first message launch leaves the first round's messages. -/
theorem msg0_val (c : Dev nD) : V2 m ρ c main_v28 = msg0 m c := by
  refine ((W2_arr m ρ c 7).trans (R0.final (V1 m ρ) c)).trans ?_
  unfold R0.G msg0
  rw [V1_v8 m ρ c, V1_v15 m ρ c, V1_v0 m ρ c, V1_v18 m ρ c, V1_v21 m ρ c, V1_v24 m ρ c, V1_v27 m ρ c]

/-- The first update launch leaves the first round's states. -/
theorem hv1_val (c : Dev nD) : V4 m ρ c main_v42 = hv1 m c := by
  refine ((W4_arr m ρ c 6).trans (R1.final (V3 m ρ) c)).trans ?_
  unfold R1.G hv1
  rw [V3_v31 m ρ c, V3_arg0 m ρ c, V3_v33 m ρ c, V3_v35 m ρ c, V3_v38 m ρ c, V3_v41 m ρ c, msg0_val m ρ c]

/-- The second message launch leaves the second round's messages. -/
theorem msg1_val (c : Dev nD) : V6 m ρ c main_v70 = msg1 m c := by
  refine ((W6_arr m ρ c 7).trans (R2.final (V5 m ρ) c)).trans ?_
  unfold R2.G msg1
  rw [V5_v50 m ρ c, V5_v57 m ρ c, V5_v0 m ρ c, V5_v60 m ρ c, V5_v63 m ρ c, V5_v66 m ρ c, V5_v69 m ρ c, hv1_val m ρ c]

/-- THE RESULT: the result buffer's final contents are the second round's states. -/
theorem result_val (c : Dev nD) : W8 m ρ c (Proc.devRef .tc main_v84) = hv2 m c := by
  refine ((W8_arr m ρ c 6).trans (R3.final (V7 m ρ) c)).trans ?_
  unfold R3.G hv2
  rw [V7_v73 m ρ c, V7_v42 m ρ c, V7_v75 m ρ c, V7_v77 m ρ c, V7_v80 m ρ c, V7_v83 m ρ c, msg1_val m ρ c, hv1_val m ρ c]

end Cert.KernelIdeal.KV

end
-- ==== Proof.RefValue.lean ====
/-
  The reference's result, as two rounds of the row-wise specification.

  The reference computes each round with whole-array host operations: gathers of the state rows at the edges' two
  ends, three dot_generals and a broadcast bias for the messages, a scatter-add per destination node, two more
  dot_generals with broadcast biases, three column slices of each, and the gate arithmetic with the logistic
  function spelled  1 / (1 + exp(−x)).  Read entry by entry, each dot_general is a row times a matrix, a column
  slice moves the column by its offset, the broadcast biases read the bias vector at the column, and
  1 / (1 + exp(−x))  is the logistic function; so the messages are msgArr and the update is gruArr of the same
  operands, and the whole result is roundOf applied twice.
-/
import proofs.«149155_j68058051772923_1_alg».proof.Proof.Gen.ReferenceIdeal.Run
import proofs.«149155_j68058051772923_1_alg».proof.Proof.RowSpec
import Idealize.ShloMosaic.Lib.Pipeline.Value
import Idealize.ShloMosaic.Lib.ValueLayout

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.ShloMosaic.StableHlo
open Cert.RowDot Cert.RowSpec

/-- The start indices of a gather: a negative index counts from the end (jnp's convention), then a unit column. -/
def startsOf (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- The rows of the node states at the edges' ends given by the index vector x. -/
def gathAt (x : IVec S800000 32) (hv : FVec Ideal S50000x128 .f32) : FVec Ideal S800000x128 .f32 :=
  Host.gather gather_S50000x128_S800000x1_S800000x128_1_0_n_n_0_1_1128 hv (startsOf x)

/-- The per-node sum of the edges' messages, by destination. -/
def aggAt (dst : IVec S800000 32) (u : FVec Ideal S800000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst) u

/-- The word of 1.0 reads the extended real 1. -/
theorem ofBits_one : Ideal.ofBits .f32 0x3F800000#32 = 1 := by
  simp [Ideal.ofBits, Ideal.ieee, -EReal.coe_mul]; norm_num

/-- A 128-vector broadcast first to one row and then to every row reads, at (i, q), the vector at q. -/
theorem bias128_apply (b1 : FVec Ideal S128 .f32) (i : Fin 800000) (q : Fin 128) :
    broadcastInDim S800000x128 ![0, 1] bcast_S1x128_S800000x128_0_1 (broadcastInDim S1x128 ![1] bcast_S128_S1x128_1 b1) (ix2 i q)
      = b1 (ix1 q) := by
  refine (broadcastInDim_apply _ _ _ (ix2 i q) (ix2 (0 : Fin 1) q) ?_).trans ?_
  · intro a
    match a with
    | ⟨0, _⟩ => exact (if_pos rfl).symm
    | ⟨1, _⟩ => exact (if_neg (show ¬((128 : Nat) = 1) by decide)).symm
  · refine broadcastInDim_apply _ _ _ (ix2 (0 : Fin 1) q) (ix1 q) ?_
    intro a
    match a with
    | ⟨0, _⟩ => exact (if_neg (show ¬((128 : Nat) = 1) by decide)).symm

/-- The messages as the reference spells them. -/
def msgTerm (s d : FVec Ideal S800000x128 .f32) (e : FVec Ideal S800000x32 .f32) (ws wd : FVec Ideal S128x128 .f32)
    (we : FVec Ideal S32x128 .f32) (b1 : FVec Ideal S128 .f32) : FVec Ideal S800000x128 .f32 :=
  addf (addf (addf (Host.dotGeneral dot_S800000x128_S128x128_S800000x128_1_0_0_1_n_n none s ws)
      (Host.dotGeneral dot_S800000x128_S128x128_S800000x128_1_0_0_1_n_n none d wd))
      (Host.dotGeneral dot_S800000x32_S32x128_S800000x128_1_0_0_1_n_n none e we))
    (broadcastInDim S800000x128 ![0, 1] bcast_S1x128_S800000x128_0_1 (broadcastInDim S1x128 ![1] bcast_S128_S1x128_1 b1))

/-- Entry by entry the reference's messages are the specification's. -/
theorem msgTerm_eq (s d : FVec Ideal S800000x128 .f32) (e : FVec Ideal S800000x32 .f32) (ws wd : FVec Ideal S128x128 .f32)
    (we : FVec Ideal S32x128 .f32) (b1 : FVec Ideal S128 .f32) :
    msgTerm s d e ws wd we b1 = msgArr s d e ws wd we (fun q => b1 (ix1 q)) := by
  funext j
  obtain ⟨i, q, rfl⟩ : ∃ (i : Fin 800000) (q : Fin 128), j = ix2 i q := ⟨j 0, j 1, eq_ix2 j⟩
  have e1 : dot_S800000x128_S128x128_S800000x128_1_0_0_1_n_n = DotDims.plain 800000 128 128 := rfl
  have e2 : dot_S800000x32_S32x128_S800000x128_1_0_0_1_n_n = DotDims.plain 800000 32 128 := rfl
  unfold msgTerm msgArr msgRow
  simp only [Host.dotGeneral]
  rw [e1, e2]
  show ((FloatOps.dotGeneral (DotDims.plain 800000 128 128) none .single s ws (ix2 i q)
        + FloatOps.dotGeneral (DotDims.plain 800000 128 128) none .single d wd (ix2 i q))
        + FloatOps.dotGeneral (DotDims.plain 800000 32 128) none .single e we (ix2 i q))
      + broadcastInDim S800000x128 ![0, 1] bcast_S1x128_S800000x128_0_1 (broadcastInDim S1x128 ![1] bcast_S128_S1x128_1 b1) (ix2 i q) = _
  rw [dotGeneral_plain_apply, dotGeneral_plain_apply, dotGeneral_plain_apply, bias128_apply]

/-- The gate pre-activations as the reference spells them: a dot_general plus a broadcast bias. -/
def preTerm (x : FVec Ideal S50000x128 .f32) (w : FVec Ideal S128x384 .f32) (b1 : FVec Ideal S384 .f32) : FVec Ideal S50000x384 .f32 :=
  addf (Host.dotGeneral dot_S50000x128_S128x384_S50000x384_1_0_0_1_n_n none x w)
    (broadcastInDim S50000x384 ![0, 1] bcast_S1x384_S50000x384_0_1 (broadcastInDim S1x384 ![1] bcast_S384_S1x384_1 b1))

/-- The logistic function as the reference spells it. -/
def sigTerm (x : FVec Ideal S50000x128 .f32) : FVec Ideal S50000x128 .f32 :=
  Host.divf (broadcastInDim S50000x128 ![] bcast_S_S50000x128 (constant (F := Ideal) S_ .f32 0x3F800000#32))
    (addf (broadcastInDim S50000x128 ![] bcast_S_S50000x128 (constant (F := Ideal) S_ .f32 0x3F800000#32)) (Host.exp (Host.negf x)))

/-- A 384-vector broadcast first to one row and then to every row reads, at (i, c), the vector at c. -/
theorem bias384_apply (b1 : FVec Ideal S384 .f32) (i : Fin 50000) (c : Fin 384) :
    broadcastInDim S50000x384 ![0, 1] bcast_S1x384_S50000x384_0_1 (broadcastInDim S1x384 ![1] bcast_S384_S1x384_1 b1) (ix2 i c)
      = b1 (ix1 c) := by
  refine (broadcastInDim_apply _ _ _ (ix2 i c) (ix2 (0 : Fin 1) c) ?_).trans ?_
  · intro a
    match a with
    | ⟨0, _⟩ => exact (if_pos rfl).symm
    | ⟨1, _⟩ => exact (if_neg (show ¬((384 : Nat) = 1) by decide)).symm
  · refine broadcastInDim_apply _ _ _ (ix2 (0 : Fin 1) c) (ix1 c) ?_
    intro a
    match a with
    | ⟨0, _⟩ => exact (if_neg (show ¬((384 : Nat) = 1) by decide)).symm

/-- Entry (i, c) of the pre-activations is row i's pre-activation at column c. -/
theorem preTerm_apply (x : FVec Ideal S50000x128 .f32) (w : FVec Ideal S128x384 .f32) (b1 : FVec Ideal S384 .f32)
    (i : Fin 50000) (c : Fin 384) :
    preTerm x w b1 (ix2 i c) = pre (rowOf x i) w (fun c => b1 (ix1 c)) c := by
  have e1 : dot_S50000x128_S128x384_S50000x384_1_0_0_1_n_n = DotDims.plain 50000 128 384 := rfl
  unfold preTerm pre
  simp only [Host.dotGeneral]
  rw [e1]
  show FloatOps.dotGeneral (DotDims.plain 50000 128 384) none .single x w (ix2 i c)
      + broadcastInDim S50000x384 ![0, 1] bcast_S1x384_S50000x384_0_1 (broadcastInDim S1x384 ![1] bcast_S384_S1x384_1 b1) (ix2 i c) = _
  rw [dotGeneral_plain_apply, bias384_apply]

/-- Entry (i, q) of the column slice at offset o of the pre-activations is row i's pre-activation at column o + q. -/
theorem sliceTerm_apply (o : Nat) (ho : o + 128 ≤ 384) (x : FVec Ideal S50000x128 .f32) (w : FVec Ideal S128x384 .f32)
    (b1 : FVec Ideal S384 .f32) (h : S50000x384.Slices ![0, o] S50000x128) (i : Fin 50000) (q : Fin 128) :
    extractStridedSlice S50000x128 ![0, o] (preTerm x w b1) h (ix2 i q)
      = pre (rowOf x i) w (fun c => b1 (ix1 c)) (gate o ho q) :=
  (slice2_axis1_apply o (preTerm x w b1) h i q (gate o ho q) rfl).trans (preTerm_apply x w b1 i (gate o ho q))

/-- Entry by entry the reference's  1 / (1 + exp(−x))  is the logistic function. -/
theorem sigTerm_apply (x : FVec Ideal S50000x128 .f32) (j : S50000x128.Idx) : sigTerm x j = Ideal.logistic (x j) := by
  show Ideal.div (Ideal.ofBits .f32 0x3F800000#32) (Ideal.ofBits .f32 0x3F800000#32 + Ideal.exp (-(x j))) = _
  rw [ofBits_one]
  rfl

/-- The node update as the reference spells it. -/
def gruTerm (a h : FVec Ideal S50000x128 .f32) (wih whh : FVec Ideal S128x384 .f32) (bih1 bhh1 : FVec Ideal S384 .f32) :
    FVec Ideal S50000x128 .f32 :=
  addf (mulf (subf (broadcastInDim S50000x128 ![] bcast_S_S50000x128 (constant (F := Ideal) S_ .f32 0x3F800000#32))
        (sigTerm (addf (extractStridedSlice S50000x128 ![0, 128] (preTerm a wih bih1) slices_S50000x384_S50000x128_0_128)
          (extractStridedSlice S50000x128 ![0, 128] (preTerm h whh bhh1) slices_S50000x384_S50000x128_0_128))))
      (Host.tanh (addf (extractStridedSlice S50000x128 ![0, 256] (preTerm a wih bih1) slices_S50000x384_S50000x128_0_256)
        (mulf (sigTerm (addf (extractStridedSlice S50000x128 ![0, 0] (preTerm a wih bih1) slices_S50000x384_S50000x128_0_0)
            (extractStridedSlice S50000x128 ![0, 0] (preTerm h whh bhh1) slices_S50000x384_S50000x128_0_0)))
          (extractStridedSlice S50000x128 ![0, 256] (preTerm h whh bhh1) slices_S50000x384_S50000x128_0_256)))))
    (mulf (sigTerm (addf (extractStridedSlice S50000x128 ![0, 128] (preTerm a wih bih1) slices_S50000x384_S50000x128_0_128)
        (extractStridedSlice S50000x128 ![0, 128] (preTerm h whh bhh1) slices_S50000x384_S50000x128_0_128))) h)

/-- Entry by entry the reference's update is the specification's. -/
theorem gruTerm_eq (a h : FVec Ideal S50000x128 .f32) (wih whh : FVec Ideal S128x384 .f32) (bih1 bhh1 : FVec Ideal S384 .f32) :
    gruTerm a h wih whh bih1 bhh1 = gruArr a h wih whh (fun c => bih1 (ix1 c)) (fun c => bhh1 (ix1 c)) := by
  funext j
  obtain ⟨i, q, rfl⟩ : ∃ (i : Fin 50000) (q : Fin 128), j = ix2 i q := ⟨j 0, j 1, eq_ix2 j⟩
  unfold gruTerm gruArr gruRow
  show (one - sigTerm _ (ix2 i q)) * Ideal.tanh (_ + sigTerm _ (ix2 i q) * _) + sigTerm _ (ix2 i q) * h (ix2 i q) = _
  simp only [sigTerm_apply, addf_apply, sliceTerm_apply 0 (by decide), sliceTerm_apply 128 (by decide),
    sliceTerm_apply 256 (by decide)]
  rfl

/-! ## The two rounds' operands, as the reference slices them out of the stacked arguments -/

variable (V0 : Valuation τ sig (Elt Ideal))

def ws0 : FVec Ideal S128x128 .f32 := shapeCast _ (extractStridedSlice S1x128x128 ![0, 0, 0] (V0 (Proc.devRef .tc main_arg4)) slices_S2x288x128_S1x128x128_0_0_0) shapeCasts_S1x128x128_S128x128
def wd0 : FVec Ideal S128x128 .f32 := shapeCast _ (extractStridedSlice S1x128x128 ![0, 128, 0] (V0 (Proc.devRef .tc main_arg4)) slices_S2x288x128_S1x128x128_0_128_0) shapeCasts_S1x128x128_S128x128
def we0 : FVec Ideal S32x128 .f32 := shapeCast _ (extractStridedSlice S1x32x128 ![0, 256, 0] (V0 (Proc.devRef .tc main_arg4)) slices_S2x288x128_S1x32x128_0_256_0) shapeCasts_S1x32x128_S32x128
def bm0 : FVec Ideal S128 .f32 := shapeCast _ (extractStridedSlice S1x128 ![0, 0] (V0 (Proc.devRef .tc main_arg5)) slices_S2x128_S1x128_0_0) shapeCasts_S1x128_S128
def wih0 : FVec Ideal S128x384 .f32 := shapeCast _ (extractStridedSlice S1x128x384 ![0, 0, 0] (V0 (Proc.devRef .tc main_arg6)) slices_S2x128x384_S1x128x384_0_0_0) shapeCasts_S1x128x384_S128x384
def whh0 : FVec Ideal S128x384 .f32 := shapeCast _ (extractStridedSlice S1x128x384 ![0, 0, 0] (V0 (Proc.devRef .tc main_arg7)) slices_S2x128x384_S1x128x384_0_0_0) shapeCasts_S1x128x384_S128x384
def bih0 : FVec Ideal S384 .f32 := shapeCast _ (extractStridedSlice S1x384 ![0, 0] (V0 (Proc.devRef .tc main_arg8)) slices_S2x384_S1x384_0_0) shapeCasts_S1x384_S384
def bhh0 : FVec Ideal S384 .f32 := shapeCast _ (extractStridedSlice S1x384 ![0, 0] (V0 (Proc.devRef .tc main_arg9)) slices_S2x384_S1x384_0_0) shapeCasts_S1x384_S384
def ws1 : FVec Ideal S128x128 .f32 := shapeCast _ (extractStridedSlice S1x128x128 ![1, 0, 0] (V0 (Proc.devRef .tc main_arg4)) slices_S2x288x128_S1x128x128_1_0_0) shapeCasts_S1x128x128_S128x128
def wd1 : FVec Ideal S128x128 .f32 := shapeCast _ (extractStridedSlice S1x128x128 ![1, 128, 0] (V0 (Proc.devRef .tc main_arg4)) slices_S2x288x128_S1x128x128_1_128_0) shapeCasts_S1x128x128_S128x128
def we1 : FVec Ideal S32x128 .f32 := shapeCast _ (extractStridedSlice S1x32x128 ![1, 256, 0] (V0 (Proc.devRef .tc main_arg4)) slices_S2x288x128_S1x32x128_1_256_0) shapeCasts_S1x32x128_S32x128
def bm1 : FVec Ideal S128 .f32 := shapeCast _ (extractStridedSlice S1x128 ![1, 0] (V0 (Proc.devRef .tc main_arg5)) slices_S2x128_S1x128_1_0) shapeCasts_S1x128_S128
def wih1 : FVec Ideal S128x384 .f32 := shapeCast _ (extractStridedSlice S1x128x384 ![1, 0, 0] (V0 (Proc.devRef .tc main_arg6)) slices_S2x128x384_S1x128x384_1_0_0) shapeCasts_S1x128x384_S128x384
def whh1 : FVec Ideal S128x384 .f32 := shapeCast _ (extractStridedSlice S1x128x384 ![1, 0, 0] (V0 (Proc.devRef .tc main_arg7)) slices_S2x128x384_S1x128x384_1_0_0) shapeCasts_S1x128x384_S128x384
def bih1 : FVec Ideal S384 .f32 := shapeCast _ (extractStridedSlice S1x384 ![1, 0] (V0 (Proc.devRef .tc main_arg8)) slices_S2x384_S1x384_1_0) shapeCasts_S1x384_S384
def bhh1 : FVec Ideal S384 .f32 := shapeCast _ (extractStridedSlice S1x384 ![1, 0] (V0 (Proc.devRef .tc main_arg9)) slices_S2x384_S1x384_1_0) shapeCasts_S1x384_S384

/-- The state after the first round. -/
def hv1 : FVec Ideal S50000x128 .f32 :=
  roundOf (gathAt (V0 (Proc.devRef .tc main_arg2))) (gathAt (V0 (Proc.devRef .tc main_arg3))) (aggAt (V0 (Proc.devRef .tc main_arg3)))
    (V0 (Proc.devRef .tc main_arg0)) (V0 (Proc.devRef .tc main_arg1)) (ws0 V0) (wd0 V0) (we0 V0) (fun q => bm0 V0 (ix1 q))
    (wih0 V0) (whh0 V0) (fun c => bih0 V0 (ix1 c)) (fun c => bhh0 V0 (ix1 c))

/-- The first round's state, as the generated run names it, is the reference's update of the reference's messages:
    the two are the same tree of host operations. -/
theorem v76_tree :
    (res_main_v76 V0 : FVec Ideal S50000x128 .f32)
      = gruTerm (aggAt (V0 (Proc.devRef .tc main_arg3))
            (msgTerm (gathAt (V0 (Proc.devRef .tc main_arg2)) (V0 (Proc.devRef .tc main_arg0)))
              (gathAt (V0 (Proc.devRef .tc main_arg3)) (V0 (Proc.devRef .tc main_arg0)))
              (V0 (Proc.devRef .tc main_arg1)) (ws0 V0) (wd0 V0) (we0 V0) (bm0 V0)))
          (V0 (Proc.devRef .tc main_arg0)) (wih0 V0) (whh0 V0) (bih0 V0) (bhh0 V0) := rfl

/-- The first round's state is the first round of the specification. -/
theorem v76_eq : (res_main_v76 V0 : FVec Ideal S50000x128 .f32) = hv1 V0 := by
  rw [v76_tree, gruTerm_eq, msgTerm_eq]
  rfl

/-- The result term is the reference's update of the reference's messages at the first round's state:
    again the same tree of host operations. -/
theorem out_tree :
    (addf (mulf (subf (broadcastInDim S50000x128 ![] bcast_S_S50000x128 (constant S_ .f32 0x3F800000#32)) (res_main_v145 V0)) (Host.tanh (addf (extractStridedSlice S50000x128 ![0, 256] (res_main_v121 V0) slices_S50000x384_S50000x128_0_256) (mulf (Host.divf (broadcastInDim S50000x128 ![] bcast_S_S50000x128 (constant S_ .f32 0x3F800000#32)) (addf (broadcastInDim S50000x128 ![] bcast_S_S50000x128 (constant S_ .f32 0x3F800000#32)) (Host.exp (Host.negf (addf (extractStridedSlice S50000x128 ![0, 0] (res_main_v121 V0) slices_S50000x384_S50000x128_0_0) (extractStridedSlice S50000x128 ![0, 0] (res_main_v125 V0) slices_S50000x384_S50000x128_0_0)))))) (extractStridedSlice S50000x128 ![0, 256] (res_main_v125 V0) slices_S50000x384_S50000x128_0_256))))) (mulf (res_main_v145 V0) (res_main_v76 V0)) : FVec Ideal S50000x128 .f32)
      = gruTerm (aggAt (V0 (Proc.devRef .tc main_arg3))
            (msgTerm (gathAt (V0 (Proc.devRef .tc main_arg2)) (res_main_v76 V0))
              (gathAt (V0 (Proc.devRef .tc main_arg3)) (res_main_v76 V0))
              (V0 (Proc.devRef .tc main_arg1)) (ws1 V0) (wd1 V0) (we1 V0) (bm1 V0)))
          (res_main_v76 V0) (wih1 V0) (whh1 V0) (bih1 V0) (bhh1 V0) := rfl

/-- THE REFERENCE'S RESULT: the generated run's term of the launch contents is the second round of the first. -/
theorem ref_value :
    (addf (mulf (subf (broadcastInDim S50000x128 ![] bcast_S_S50000x128 (constant S_ .f32 0x3F800000#32)) (res_main_v145 V0)) (Host.tanh (addf (extractStridedSlice S50000x128 ![0, 256] (res_main_v121 V0) slices_S50000x384_S50000x128_0_256) (mulf (Host.divf (broadcastInDim S50000x128 ![] bcast_S_S50000x128 (constant S_ .f32 0x3F800000#32)) (addf (broadcastInDim S50000x128 ![] bcast_S_S50000x128 (constant S_ .f32 0x3F800000#32)) (Host.exp (Host.negf (addf (extractStridedSlice S50000x128 ![0, 0] (res_main_v121 V0) slices_S50000x384_S50000x128_0_0) (extractStridedSlice S50000x128 ![0, 0] (res_main_v125 V0) slices_S50000x384_S50000x128_0_0)))))) (extractStridedSlice S50000x128 ![0, 256] (res_main_v125 V0) slices_S50000x384_S50000x128_0_256))))) (mulf (res_main_v145 V0) (res_main_v76 V0)) : FVec Ideal S50000x128 .f32)
      = roundOf (gathAt (V0 (Proc.devRef .tc main_arg2))) (gathAt (V0 (Proc.devRef .tc main_arg3))) (aggAt (V0 (Proc.devRef .tc main_arg3)))
          (hv1 V0) (V0 (Proc.devRef .tc main_arg1)) (ws1 V0) (wd1 V0) (we1 V0) (fun q => bm1 V0 (ix1 q))
          (wih1 V0) (whh1 V0) (fun c => bih1 V0 (ix1 c)) (fun c => bhh1 V0 (ix1 c)) := by
  refine (out_tree V0).trans ?_
  rw [gruTerm_eq, msgTerm_eq, v76_eq]
  rfl

end Cert.ReferenceIdeal.RefValue

end
-- ==== Proof.Agree.lean ====
/-
  The two programs' results are one function of the arguments.

  Both results are two rounds of the same row-wise specification; what is left to compare is how each program
  spells a round's operands.  The gathers and the scatter-add are the same host operations with the same
  dimension numbers — the kernel's program gathers from the states narrowed to a shorter float format, which is
  the identity on exact values.  The weight blocks are the same slices of the stacked weights, narrowed or not.
  A bias row is the same slice of the stacked biases: the kernel's program reshapes the vector to one row and the
  body reads that row at column q, the reference broadcasts the vector and reads it at q; both are the vector's
  entry q.
-/
import proofs.«149155_j68058051772923_1_alg».proof.Proof.KValue
import proofs.«149155_j68058051772923_1_alg».proof.Proof.RefValue
import Idealize.ShloMosaic.Lib.ValueLayout

set_option maxRecDepth 16384

noncomputable section

namespace Cert.Proof.Agree

open Idealize.ShloMosaic Idealize.ShloMosaic.TcCoe Idealize.ShloMosaic.ValueIdx Idealize.SL.Sem
open Cert.RowDot Cert.RowSpec

/-- A narrowing format change is the identity on exact values. -/
theorem truncf_id {s : Shape} (x : FVec Ideal s .f32) (h : FTy.bits .bf16 < FTy.bits .f32) :
    (truncf .bf16 x h : FVec Ideal s .bf16) = x := rfl

/-- A vector reshaped to one row, read at (0, q), is the vector at q. -/
theorem row_of_vec {a : Nat} (x : (⟨1, ![a]⟩ : Shape).Idx → EReal) (h : (⟨1, ![a]⟩ : Shape).ShapeCasts ⟨2, ![1, a]⟩) :
    (fun q : Fin a => shapeCast (⟨2, ![1, a]⟩ : Shape) x h (ix2 (0 : Fin 1) q)) = fun q => x (ix1 q) :=
  funext fun q => shapeCast_a_1a_apply x h 0 q

open Cert.ReferenceIdeal.RefValue in
/-- THE AGREEMENT: from memories agreeing on the ten arguments, the reference's two rounds are the kernel's. -/
theorem agree (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (h0 : V0 (Proc.devRef .tc Cert.ReferenceIdeal.main_arg0) = (m ((c : Thread Cert.KernelIdeal.nD Cert.KernelIdeal.τ).loc Cert.KernelIdeal.main_arg0)))
    (h1 : V0 (Proc.devRef .tc Cert.ReferenceIdeal.main_arg1) = (m ((c : Thread Cert.KernelIdeal.nD Cert.KernelIdeal.τ).loc Cert.KernelIdeal.main_arg1)))
    (h2 : V0 (Proc.devRef .tc Cert.ReferenceIdeal.main_arg2) = (m ((c : Thread Cert.KernelIdeal.nD Cert.KernelIdeal.τ).loc Cert.KernelIdeal.main_arg2)))
    (h3 : V0 (Proc.devRef .tc Cert.ReferenceIdeal.main_arg3) = (m ((c : Thread Cert.KernelIdeal.nD Cert.KernelIdeal.τ).loc Cert.KernelIdeal.main_arg3)))
    (h4 : V0 (Proc.devRef .tc Cert.ReferenceIdeal.main_arg4) = (m ((c : Thread Cert.KernelIdeal.nD Cert.KernelIdeal.τ).loc Cert.KernelIdeal.main_arg4)))
    (h5 : V0 (Proc.devRef .tc Cert.ReferenceIdeal.main_arg5) = (m ((c : Thread Cert.KernelIdeal.nD Cert.KernelIdeal.τ).loc Cert.KernelIdeal.main_arg5)))
    (h6 : V0 (Proc.devRef .tc Cert.ReferenceIdeal.main_arg6) = (m ((c : Thread Cert.KernelIdeal.nD Cert.KernelIdeal.τ).loc Cert.KernelIdeal.main_arg6)))
    (h7 : V0 (Proc.devRef .tc Cert.ReferenceIdeal.main_arg7) = (m ((c : Thread Cert.KernelIdeal.nD Cert.KernelIdeal.τ).loc Cert.KernelIdeal.main_arg7)))
    (h8 : V0 (Proc.devRef .tc Cert.ReferenceIdeal.main_arg8) = (m ((c : Thread Cert.KernelIdeal.nD Cert.KernelIdeal.τ).loc Cert.KernelIdeal.main_arg8)))
    (h9 : V0 (Proc.devRef .tc Cert.ReferenceIdeal.main_arg9) = (m ((c : Thread Cert.KernelIdeal.nD Cert.KernelIdeal.τ).loc Cert.KernelIdeal.main_arg9))) :
    roundOf (gathAt (V0 (Proc.devRef .tc Cert.ReferenceIdeal.main_arg2))) (gathAt (V0 (Proc.devRef .tc Cert.ReferenceIdeal.main_arg3)))
        (aggAt (V0 (Proc.devRef .tc Cert.ReferenceIdeal.main_arg3)))
        (hv1 V0) (V0 (Proc.devRef .tc Cert.ReferenceIdeal.main_arg1)) (ws1 V0) (wd1 V0) (we1 V0) (fun q => bm1 V0 (ix1 q))
        (wih1 V0) (whh1 V0) (fun u => bih1 V0 (ix1 u)) (fun u => bhh1 V0 (ix1 u))
      = Cert.KernelIdeal.KV.hv2 m c := by
  unfold Cert.KernelIdeal.KV.hv2 Cert.KernelIdeal.KV.msg1 Cert.KernelIdeal.KV.hv1 Cert.KernelIdeal.KV.msg0
  unfold hv1 roundOf
  simp only [ws0, wd0, we0, bm0, wih0, whh0, bih0, bhh0, ws1, wd1, we1, bm1, wih1, whh1, bih1, bhh1]
  rw [h0, h1, h2, h3, h4, h5, h6, h7, h8, h9]
  unfold Cert.KernelIdeal.KHost.ws0K Cert.KernelIdeal.KHost.wd0K Cert.KernelIdeal.KHost.we0K Cert.KernelIdeal.KHost.bm0K
    Cert.KernelIdeal.KHost.wih0K Cert.KernelIdeal.KHost.whh0K Cert.KernelIdeal.KHost.bih0K Cert.KernelIdeal.KHost.bhh0K
    Cert.KernelIdeal.KHost.ws1K Cert.KernelIdeal.KHost.wd1K Cert.KernelIdeal.KHost.we1K Cert.KernelIdeal.KHost.bm1K
    Cert.KernelIdeal.KHost.wih1K Cert.KernelIdeal.KHost.whh1K Cert.KernelIdeal.KHost.bih1K Cert.KernelIdeal.KHost.bhh1K
  simp only [truncf_id, row_of_vec]
  rfl

end Cert.Proof.Agree

end
-- ==== Proof.lean ====
/-
  Two rounds of graph message passing: the kernel's program against its reference, at the exact values.

  Each round gathers the node states at every edge's two ends, forms every edge's message
      ((s · Ws + d · Wd) + e · We) + b,
  adds the messages up per destination node, and updates every node by a gated recurrent cell.  The kernel's
  program computes the messages and the update in two launches per round, block of rows by block of rows through the
  matrix unit, on operands narrowed to a shorter float format; the reference computes them with whole-array host
  operations.  At the exact values narrowing is the identity, a product into a zero accumulator and a dot_general
  are the same row-times-matrix sums, the logistic function is 1 / (1 + exp(−x)) by definition, and a block of rows of
  a row-wise function is that function of the block; so both programs end with the same array, entry by entry.
  The equality uses no law that needs finite operands: both sides are the same tree of sums and products.

  The three frames are the generated ones (the reference's is its run with the result dropped); the idealization
  rewrote nothing, so its claim is trivial; the value claim pairs the kernel's run, read back through its four
  launches and the host stretches between them, with the reference's run.
-/
import proofs.«149155_j68058051772923_1_alg».proof.Defs
import proofs.«149155_j68058051772923_1_alg».proof.Proof.Gen.Kernel
import proofs.«149155_j68058051772923_1_alg».proof.Proof.Gen.Kernel.Skeleton
import proofs.«149155_j68058051772923_1_alg».proof.Proof.Gen.Kernel.Launch
import proofs.«149155_j68058051772923_1_alg».proof.Proof.Gen.Kernel.Points
import proofs.«149155_j68058051772923_1_alg».proof.Proof.Gen.Kernel.Frame
import proofs.«149155_j68058051772923_1_alg».proof.Proof.Gen.KernelIdeal
import proofs.«149155_j68058051772923_1_alg».proof.Proof.Gen.KernelIdeal.Skeleton
import proofs.«149155_j68058051772923_1_alg».proof.Proof.Gen.KernelIdeal.Launch
import proofs.«149155_j68058051772923_1_alg».proof.Proof.Gen.KernelIdeal.Points
import proofs.«149155_j68058051772923_1_alg».proof.Proof.Gen.KernelIdeal.Frame
import proofs.«149155_j68058051772923_1_alg».proof.Proof.Gen.ReferenceIdeal
import proofs.«149155_j68058051772923_1_alg».proof.Proof.Gen.ReferenceIdeal.Run
import proofs.«149155_j68058051772923_1_alg».proof.Proof.Gen.Pre_finite_inputs
import proofs.«149155_j68058051772923_1_alg».proof.Proof.Agree
import Idealize.ShloMosaic.Adequacy
import Idealize.ShloMosaic.Init

noncomputable section

namespace Cert.Proof

open Idealize.ShloMosaic Idealize.SL.Sem Idealize.ShloMosaic.StableHlo

/-- The word-level kernel runs and keeps its arguments. -/
theorem frame_k : @Cert.frame_Kernel Cert.Kernel.Gen.facts Cert.Pre_finite_inputs.Gen.facts :=
  fun m ρ _ => Cert.Kernel.Gen.frame m ρ

/-- The idealized kernel runs and keeps its arguments. -/
theorem frame_ki : @Cert.frame_KernelIdeal Cert.KernelIdeal.Gen.facts Cert.Pre_finite_inputs.Gen.facts :=
  fun m ρ _ => Cert.KernelIdeal.Gen.frame m ρ

/-- The idealized reference runs and keeps its arguments: its run, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments both idealized programs end with the second round's states. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.KV.hv2 m c, ?_, ?_⟩
  · exact (θ_run Cert.KernelIdeal.defs _ _).mono
      (fun r h c => ⟨(h c).1.trans (Cert.KernelIdeal.KV.result_val m ρ c), (h c).2⟩)
      (Cert.KernelIdeal.KV.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    exact (Cert.ReferenceIdeal.RefValue.ref_value (launchContents m' c)).trans
      (Cert.Proof.Agree.agree m (launchContents m' c) c h0 h1 h2 h3 h4 h5 h6 h7 h8 h9)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
